-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x31x1 : Shape := ⟨5, ![8, 512, 512, 31, 1]⟩
abbrev S1x512x512x1x1 : Shape := ⟨5, ![1, 512, 512, 1, 1]⟩
abbrev S_ : Shape := ⟨0, ![]⟩

class Facts : Prop where
  bcast_S_S8x512x512x31x1 : S_.BroadcastsInDim S8x512x512x31x1 (![] : Fin 0 → Fin S8x512x512x31x1.rank)
  reducesTo_S8x512x512x31x1_S_d0_1_2_3_4 : S8x512x512x31x1.ReducesTo [0, 1, 2, 3, 4] S_
  h_S_ : 0 < S_.numel
  bcast_S_S1x512x512x1x1 : S_.BroadcastsInDim S1x512x512x1x1 (![] : Fin 0 → Fin S1x512x512x1x1.rank)
  reducesTo_S1x512x512x1x1_S_d0_1_2_3_4 : S1x512x512x1x1.ReducesTo [0, 1, 2, 3, 4] S_

variable [Facts]

def fn {F : FTy → Type} [FloatOps F] (main_arg0 : FVec F S8x512x512x31x1 .f32) (main_arg1 : FVec F S1x512x512x1x1 .f32) : IVec S_ 1 :=
  let main_v0 : FVec F S8x512x512x31x1 .f32 := Host.absf main_arg0
  let main_cst : FVec F S_ .f32 := constant S_ .f32 0x7F800000#32
  let main_v1 : FVec F S8x512x512x31x1 .f32 := broadcastInDim S8x512x512x31x1 ![] bcast_S_S8x512x512x31x1 main_cst
  let main_v2 : IVec S8x512x512x31x1 1 := cmpf .olt main_v0 main_v1
  let main_c : IVec S_ 1 := constantI S_ 1 1#1
  let main_v3 : IVec S_ 1 := (fun x v => Host.reduce IntOp.andi x v reducesTo_S8x512x512x31x1_S_d0_1_2_3_4 h_S_) main_v2 main_c
  let main_v4 : FVec F S1x512x512x1x1 .f32 := Host.absf main_arg1
  let main_cst_0 : FVec F S_ .f32 := constant S_ .f32 0x7F800000#32
  let main_v5 : FVec F S1x512x512x1x1 .f32 := broadcastInDim S1x512x512x1x1 ![] bcast_S_S1x512x512x1x1 main_cst_0
  let main_v6 : IVec S1x512x512x1x1 1 := cmpf .olt main_v4 main_v5
  let main_c_1 : IVec S_ 1 := constantI S_ 1 1#1
  let main_v7 : IVec S_ 1 := (fun x v => Host.reduce IntOp.andi x v reducesTo_S1x512x512x1x1_S_d0_1_2_3_4 h_S_) main_v6 main_c_1
  let main_v8 : IVec S_ 1 := andi main_v3 main_v7
  main_v8
-- ==== Kernel.lean ====
abbrev S8x512x512x31x1 : Shape := ⟨5, ![8, 512, 512, 31, 1]⟩
abbrev S1x512x512x1x1 : Shape := ⟨5, ![1, 512, 512, 1, 1]⟩
abbrev S8x512x512x31 : Shape := ⟨4, ![8, 512, 512, 31]⟩
abbrev S512x512 : Shape := ⟨2, ![512, 512]⟩
abbrev S8x512x542 : Shape := ⟨3, ![8, 512, 542]⟩
abbrev S1x128x512x31 : Shape := ⟨4, ![1, 128, 512, 31]⟩
abbrev S128x512 : Shape := ⟨2, ![128, 512]⟩
abbrev S1x128x542 : Shape := ⟨3, ![1, 128, 542]⟩
abbrev S128x542 : Shape := ⟨2, ![128, 542]⟩
abbrev S128x512x31 : Shape := ⟨3, ![128, 512, 31]⟩
abbrev S128x512x1 : Shape := ⟨3, ![128, 512, 1]⟩
abbrev S_ : Shape := ⟨0, ![]⟩
abbrev S8x512x542x1 : Shape := ⟨4, ![8, 512, 542, 1]⟩

abbrev nBuf : Space → Nat
  | .hbm => 10
  | .vmem => 7
  | .smem => 0
  | _ => 0

abbrev bufTy : (tb : Table) → Fin (tcTables nBuf tb) → BufTy
  | .hbm, ⟨0, _⟩ => ⟨S8x512x512x31x1, .f32⟩
  | .hbm, ⟨1, _⟩ => ⟨S1x512x512x1x1, .f32⟩
  | .hbm, ⟨2, _⟩ => ⟨S8x512x512x31, .f32⟩
  | .hbm, ⟨3, _⟩ => ⟨S512x512, .f32⟩
  | .hbm, ⟨4, _⟩ => ⟨S8x512x542, .f32⟩
  | .hbm, ⟨5, _⟩ => ⟨S_, .f32⟩
  | .hbm, ⟨6, _⟩ => ⟨S_, .f32⟩
  | .hbm, ⟨7, _⟩ => ⟨S8x512x542, .f32⟩
  | .hbm, ⟨8, _⟩ => ⟨S8x512x542, .f32⟩
  | .hbm, ⟨9, _⟩ => ⟨S8x512x542x1, .f32⟩
  | .local _ .vmem, ⟨0, _⟩ => ⟨S1x128x512x31, .f32⟩
  | .local _ .vmem, ⟨1, _⟩ => ⟨S1x128x512x31, .f32⟩
  | .local _ .vmem, ⟨2, _⟩ => ⟨S128x512, .f32⟩
  | .local _ .vmem, ⟨3, _⟩ => ⟨S128x512, .f32⟩
  | .local _ .vmem, ⟨4, _⟩ => ⟨S1x128x542, .f32⟩
  | .local _ .vmem, ⟨5, _⟩ => ⟨S1x128x542, .f32⟩
  | .local _ .vmem, ⟨6, _⟩ => ⟨S128x542, .f32⟩
  | _, _ => ⟨S8x512x512x31x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512x31 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x542 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x512x512x31x1_S8x512x512x31 : S8x512x512x31x1.ShapeCasts S8x512x512x31
  shapeCasts_S1x512x512x1x1_S512x512 : S1x512x512x1x1.ShapeCasts S512x512
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x128x512x31_S1x128x512x31_0_0_0_0 : ∀ a, (![0, 0, 0, 0] : Fin 4 → Nat) a + S1x128x512x31.size a ≤ S1x128x512x31.size a
  h_S1x128x512x31 : 0 < S1x128x512x31.numel
  shapeCasts_S1x128x512x31_S128x512x31 : S1x128x512x31.ShapeCasts S128x512x31
  shapeCasts_S128x512_S128x512x1 : S128x512.ShapeCasts S128x512x1
  broadcasts_S128x512x1_S128x512x31 : S128x512x1.Broadcasts S128x512x31
  inb_S128x542_S128x542_0_0 : ∀ a, (![0, 0] : Fin 2 → Nat) a + S128x542.size a ≤ S128x542.size a
  h_S128x542 : 0 < S128x542.numel
  shapeCasts_S128x542_S128x542 : S128x542.ShapeCasts S128x542
  inb_S128x542_S128x512_0_0 : ∀ a, (![0, 0] : Fin 2 → Nat) a + S128x512.size a ≤ S128x542.size a
  slices_S128x512x31_o0_0_0_S128x512x1 : S128x512x31.Slices ![0, 0, 0] S128x512x1
  shapeCasts_S128x512x1_S128x512 : S128x512x1.ShapeCasts S128x512
  inb_S128x542_S128x512_0_1 : ∀ a, (![0, 1] : Fin 2 → Nat) a + S128x512.size a ≤ S128x542.size a
  slices_S128x512x31_o0_0_1_S128x512x1 : S128x512x31.Slices ![0, 0, 1] S128x512x1
  inb_S128x542_S128x512_0_2 : ∀ a, (![0, 2] : Fin 2 → Nat) a + S128x512.size a ≤ S128x542.size a
  slices_S128x512x31_o0_0_2_S128x512x1 : S128x512x31.Slices ![0, 0, 2] S128x512x1
  inb_S128x542_S128x512_0_3 : ∀ a, (![0, 3] : Fin 2 → Nat) a + S128x512.size a ≤ S128x542.size a
  slices_S128x512x31_o0_0_3_S128x512x1 : S128x512x31.Slices ![0, 0, 3] S128x512x1
  inb_S128x542_S128x512_0_4 : ∀ a, (![0, 4] : Fin 2 → Nat) a + S128x512.size a ≤ S128x542.size a
  slices_S128x512x31_o0_0_4_S128x512x1 : S128x512x31.Slices ![0, 0, 4] S128x512x1
  inb_S128x542_S128x512_0_5 : ∀ a, (![0, 5] : Fin 2 → Nat) a + S128x512.size a ≤ S128x542.size a
  slices_S128x512x31_o0_0_5_S128x512x1 : S128x512x31.Slices ![0, 0, 5] S128x512x1
  inb_S128x542_S128x512_0_6 : ∀ a, (![0, 6] : Fin 2 → Nat) a + S128x512.size a ≤ S128x542.size a
  slices_S128x512x31_o0_0_6_S128x512x1 : S128x512x31.Slices ![0, 0, 6] S128x512x1
  inb_S128x542_S128x512_0_7 : ∀ a, (![0, 7] : Fin 2 → Nat) a + S128x512.size a ≤ S128x542.size a
  slices_S128x512x31_o0_0_7_S128x512x1 : S128x512x31.Slices ![0, 0, 7] S128x512x1
  inb_S128x542_S128x512_0_8 : ∀ a, (![0, 8] : Fin 2 → Nat) a + S128x512.size a ≤ S128x542.size a
  slices_S128x512x31_o0_0_8_S128x512x1 : S128x512x31.Slices ![0, 0, 8] S128x512x1
  inb_S128x542_S128x512_0_9 : ∀ a, (![0, 9] : Fin 2 → Nat) a + S128x512.size a ≤ S128x542.size a
  slices_S128x512x31_o0_0_9_S128x512x1 : S128x512x31.Slices ![0, 0, 9] S128x512x1
  inb_S128x542_S128x512_0_10 : ∀ a, (![0, 10] : Fin 2 → Nat) a + S128x512.size a ≤ S128x542.size a
  slices_S128x512x31_o0_0_10_S128x512x1 : S128x512x31.Slices ![0, 0, 10] S128x512x1
  inb_S128x542_S128x512_0_11 : ∀ a, (![0, 11] : Fin 2 → Nat) a + S128x512.size a ≤ S128x542.size a
  slices_S128x512x31_o0_0_11_S128x512x1 : S128x512x31.Slices ![0, 0, 11] S128x512x1
  inb_S128x542_S128x512_0_12 : ∀ a, (![0, 12] : Fin 2 → Nat) a + S128x512.size a ≤ S128x542.size a
  slices_S128x512x31_o0_0_12_S128x512x1 : S128x512x31.Slices ![0, 0, 12] S128x512x1
  inb_S128x542_S128x512_0_13 : ∀ a, (![0, 13] : Fin 2 → Nat) a + S128x512.size a ≤ S128x542.size a
  slices_S128x512x31_o0_0_13_S128x512x1 : S128x512x31.Slices ![0, 0, 13] S128x512x1
  inb_S128x542_S128x512_0_14 : ∀ a, (![0, 14] : Fin 2 → Nat) a + S128x512.size a ≤ S128x542.size a
  slices_S128x512x31_o0_0_14_S128x512x1 : S128x512x31.Slices ![0, 0, 14] S128x512x1
  inb_S128x542_S128x512_0_15 : ∀ a, (![0, 15] : Fin 2 → Nat) a + S128x512.size a ≤ S128x542.size a
  slices_S128x512x31_o0_0_15_S128x512x1 : S128x512x31.Slices ![0, 0, 15] S128x512x1
  inb_S128x542_S128x512_0_16 : ∀ a, (![0, 16] : Fin 2 → Nat) a + S128x512.size a ≤ S128x542.size a
  slices_S128x512x31_o0_0_16_S128x512x1 : S128x512x31.Slices ![0, 0, 16] S128x512x1
  inb_S128x542_S128x512_0_17 : ∀ a, (![0, 17] : Fin 2 → Nat) a + S128x512.size a ≤ S128x542.size a
  slices_S128x512x31_o0_0_17_S128x512x1 : S128x512x31.Slices ![0, 0, 17] S128x512x1
  inb_S128x542_S128x512_0_18 : ∀ a, (![0, 18] : Fin 2 → Nat) a + S128x512.size a ≤ S128x542.size a
  slices_S128x512x31_o0_0_18_S128x512x1 : S128x512x31.Slices ![0, 0, 18] S128x512x1
  inb_S128x542_S128x512_0_19 : ∀ a, (![0, 19] : Fin 2 → Nat) a + S128x512.size a ≤ S128x542.size a
  slices_S128x512x31_o0_0_19_S128x512x1 : S128x512x31.Slices ![0, 0, 19] S128x512x1
  inb_S128x542_S128x512_0_20 : ∀ a, (![0, 20] : Fin 2 → Nat) a + S128x512.size a ≤ S128x542.size a
  slices_S128x512x31_o0_0_20_S128x512x1 : S128x512x31.Slices ![0, 0, 20] S128x512x1
  inb_S128x542_S128x512_0_21 : ∀ a, (![0, 21] : Fin 2 → Nat) a + S128x512.size a ≤ S128x542.size a
  slices_S128x512x31_o0_0_21_S128x512x1 : S128x512x31.Slices ![0, 0, 21] S128x512x1
  inb_S128x542_S128x512_0_22 : ∀ a, (![0, 22] : Fin 2 → Nat) a + S128x512.size a ≤ S128x542.size a
  slices_S128x512x31_o0_0_22_S128x512x1 : S128x512x31.Slices ![0, 0, 22] S128x512x1
  inb_S128x542_S128x512_0_23 : ∀ a, (![0, 23] : Fin 2 → Nat) a + S128x512.size a ≤ S128x542.size a
  slices_S128x512x31_o0_0_23_S128x512x1 : S128x512x31.Slices ![0, 0, 23] S128x512x1
  inb_S128x542_S128x512_0_24 : ∀ a, (![0, 24] : Fin 2 → Nat) a + S128x512.size a ≤ S128x542.size a
  slices_S128x512x31_o0_0_24_S128x512x1 : S128x512x31.Slices ![0, 0, 24] S128x512x1
  inb_S128x542_S128x512_0_25 : ∀ a, (![0, 25] : Fin 2 → Nat) a + S128x512.size a ≤ S128x542.size a
  slices_S128x512x31_o0_0_25_S128x512x1 : S128x512x31.Slices ![0, 0, 25] S128x512x1
  inb_S128x542_S128x512_0_26 : ∀ a, (![0, 26] : Fin 2 → Nat) a + S128x512.size a ≤ S128x542.size a
  slices_S128x512x31_o0_0_26_S128x512x1 : S128x512x31.Slices ![0, 0, 26] S128x512x1
  inb_S128x542_S128x512_0_27 : ∀ a, (![0, 27] : Fin 2 → Nat) a + S128x512.size a ≤ S128x542.size a
  slices_S128x512x31_o0_0_27_S128x512x1 : S128x512x31.Slices ![0, 0, 27] S128x512x1
  inb_S128x542_S128x512_0_28 : ∀ a, (![0, 28] : Fin 2 → Nat) a + S128x512.size a ≤ S128x542.size a
  slices_S128x512x31_o0_0_28_S128x512x1 : S128x512x31.Slices ![0, 0, 28] S128x512x1
  inb_S128x542_S128x512_0_29 : ∀ a, (![0, 29] : Fin 2 → Nat) a + S128x512.size a ≤ S128x542.size a
  slices_S128x512x31_o0_0_29_S128x512x1 : S128x512x31.Slices ![0, 0, 29] S128x512x1
  inb_S128x542_S128x512_0_30 : ∀ a, (![0, 30] : Fin 2 → Nat) a + S128x512.size a ≤ S128x542.size a
  slices_S128x512x31_o0_0_30_S128x512x1 : S128x512x31.Slices ![0, 0, 30] S128x512x1
  inb_S1x128x542_S1x128x542_0_0_0 : ∀ a, (![0, 0, 0] : Fin 3 → Nat) a + S1x128x542.size a ≤ S1x128x542.size a
  h_S1x128x542 : 0 < S1x128x542.numel
  shapeCasts_S1x128x542_S128x542 : S1x128x542.ShapeCasts S128x542
  shapeCasts_S128x542_S1x128x542 : S128x542.ShapeCasts S1x128x542
  reducesTo_S8x512x542_S_d0_1_2 : S8x512x542.ReducesTo [0, 1, 2] S_
  h_S_ : 0 < S_.numel
  bcast_S_S8x512x542 : S_.BroadcastsInDim S8x512x542 (![] : Fin 0 → Fin S8x512x542.rank)
  bcast_S8x512x542_S8x512x542x1_0_1_2 : S8x512x542.BroadcastsInDim S8x512x542x1 (![0, 1, 2] : Fin 3 → Fin S8x512x542x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512x31.size a ≤ S8x512x512x31.size a
  hwx0_0 : ∀ i : grid0.Coords, EltTy.bits .f32 = 32 ∨ (Rect.block (s := S8x512x512x31) S1x128x512x31.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x542.size a ≤ S8x512x542.size a
  hwx0_2 : ∀ i : grid0.Coords, EltTy.bits .f32 = 32 ∨ (Rect.block (s := S8x512x542) S1x128x542.size (cc0_transform_2 i) (hinb0_2 i)).WholeWords (EltTy.packing .f32)

variable [Facts₀]

abbrev win0_0 : Pipeline.Window sig grid0 :=
  Pipeline.Window.ofSpec (Memref.whole main_v0) S1x128x512x31.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128x542.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x512x512x31x1 : Shape := ⟨5, ![8, 512, 512, 31, 1]⟩
abbrev S1x512x512x1x1 : Shape := ⟨5, ![1, 512, 512, 1, 1]⟩
abbrev S512 : Shape := ⟨1, ![512]⟩
abbrev S512x1 : Shape := ⟨2, ![512, 1]⟩
abbrev S31 : Shape := ⟨1, ![31]⟩
abbrev S1x31 : Shape := ⟨2, ![1, 31]⟩
abbrev S512x31 : Shape := ⟨2, ![512, 31]⟩
abbrev S15872 : Shape := ⟨1, ![15872]⟩
abbrev S_ : Shape := ⟨0, ![]⟩
abbrev S8x512x542x1 : Shape := ⟨4, ![8, 512, 542, 1]⟩
abbrev S8x512x15872x1 : Shape := ⟨4, ![8, 512, 15872, 1]⟩
abbrev S15872x1 : Shape := ⟨2, ![15872, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x512x512x31x1, .f32⟩
  | .hbm, ⟨1, _⟩ => ⟨S1x512x512x1x1, .f32⟩
  | .hbm, ⟨2, _⟩ => ⟨S8x512x512x31x1, .f32⟩
  | .hbm, ⟨3, _⟩ => ⟨S8x512x512x31x1, .f32⟩
  | .hbm, ⟨4, _⟩ => ⟨S512, .i32⟩
  | .hbm, ⟨5, _⟩ => ⟨S512x1, .i32⟩
  | .hbm, ⟨6, _⟩ => ⟨S31, .i32⟩
  | .hbm, ⟨7, _⟩ => ⟨S1x31, .i32⟩
  | .hbm, ⟨8, _⟩ => ⟨S512x31, .i32⟩
  | .hbm, ⟨9, _⟩ => ⟨S512x31, .i32⟩
  | .hbm, ⟨10, _⟩ => ⟨S512x31, .i32⟩
  | .hbm, ⟨11, _⟩ => ⟨S15872, .i32⟩
  | .hbm, ⟨12, _⟩ => ⟨S_, .f32⟩
  | .hbm, ⟨13, _⟩ => ⟨S8x512x542x1, .f32⟩
  | .hbm, ⟨14, _⟩ => ⟨S8x512x15872x1, .f32⟩
  | .hbm, ⟨15, _⟩ => ⟨S_, .i32⟩
  | .hbm, ⟨16, _⟩ => ⟨S15872, .i32⟩
  | .hbm, ⟨17, _⟩ => ⟨S15872, .i1⟩
  | .hbm, ⟨18, _⟩ => ⟨S_, .i32⟩
  | .hbm, ⟨19, _⟩ => ⟨S15872, .i32⟩
  | .hbm, ⟨20, _⟩ => ⟨S15872, .i32⟩
  | .hbm, ⟨21, _⟩ => ⟨S15872, .i32⟩
  | .hbm, ⟨22, _⟩ => ⟨S15872x1, .i32⟩
  | .hbm, ⟨23, _⟩ => ⟨S8x512x542x1, .f32⟩
  | .hbm, ⟨24, _⟩ => ⟨S_, .f32⟩
  | .hbm, ⟨25, _⟩ => ⟨S_, .f32⟩
  | .hbm, ⟨26, _⟩ => ⟨S8x512x542x1, .f32⟩
  | .hbm, ⟨27, _⟩ => ⟨S8x512x542x1, .f32⟩
  | _, _ => ⟨S8x512x512x31x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  bcast_S1x512x512x1x1_S8x512x512x31x1_0_1_2_3_4 : S1x512x512x1x1.BroadcastsInDim S8x512x512x31x1 (![0, 1, 2, 3, 4] : Fin 5 → Fin S8x512x512x31x1.rank)
  bcast_S512_S512x1_0 : S512.BroadcastsInDim S512x1 (![0] : Fin 1 → Fin S512x1.rank)
  bcast_S31_S1x31_1 : S31.BroadcastsInDim S1x31 (![1] : Fin 1 → Fin S1x31.rank)
  bcast_S512x1_S512x31_0_1 : S512x1.BroadcastsInDim S512x31 (![0, 1] : Fin 2 → Fin S512x31.rank)
  bcast_S1x31_S512x31_0_1 : S1x31.BroadcastsInDim S512x31 (![0, 1] : Fin 2 → Fin S512x31.rank)
  shapeCasts_S512x31_S15872 : S512x31.ShapeCasts S15872
  bcast_S_S8x512x542x1 : S_.BroadcastsInDim S8x512x542x1 (![] : Fin 0 → Fin S8x512x542x1.rank)
  shapeCasts_S8x512x512x31x1_S8x512x15872x1 : S8x512x512x31x1.ShapeCasts S8x512x15872x1
  bcast_S_S15872 : S_.BroadcastsInDim S15872 (![] : Fin 0 → Fin S15872.rank)
  bcast_S15872_S15872x1_0 : S15872.BroadcastsInDim S15872x1 (![0] : Fin 1 → Fin S15872x1.rank)
  reducesTo_S8x512x542x1_S_d0_1_2_3 : S8x512x542x1.ReducesTo [0, 1, 2, 3] S_
  h_S_ : 0 < S_.numel
  scatter_S8x512x542x1_S15872x1_S8x512x15872x1_013_2_2_1_wf : ScatterDims.WF S8x512x542x1 S15872x1 S8x512x15872x1 [0, 1, 3] [2] [2] 1

variable [Facts₀]

def scatter_S8x512x542x1_S15872x1_S8x512x15872x1_013_2_2_1 : ScatterDims S8x512x542x1 S15872x1 S8x512x15872x1 where
  updateWindowDims := [0, 1, 3]
  insertedWindowDims := [2]
  scatterDimsToOperandDims := [2]
  indexVectorDim := 1
  wf := scatter_S8x512x542x1_S15872x1_S8x512x15872x1_013_2_2_1_wf

class Facts : Prop extends Facts₀ where

variable [Facts]
-- ==== Proof.Dispersion.lean ====
/-
  The dispersion sum, apart from any program.

  A spectral cube has, for each batch and row, entries `a q l` at column `q < 512` and band `l < 31`. The
  dispersed snapshot places band `l` shifted right by `l` columns and adds the bands up: output column `n < 542`
  receives `a (n - l) l` from every band `l` with `l ≤ n < l + 512`. This file states that sum band by band
  (`partialSum a k n`: the bands below `k`, which is what an accumulator holds after `k` bands have been added
  into it), and proves the one re-indexing the comparison needs: summing `a (e / 31) (e % 31)` over the flattened
  positions `e < 512 * 31` whose column plus band is `n` is the same sum, because `e ↦ e % 31` is a bijection from
  those positions onto the bands that reach column `n`. Only commutativity and associativity of addition are used,
  so the statements hold in any commutative additive monoid, the extended reals included.
-/
import Mathlib
import Idealize.ShloMosaic.PureOps.Ideal
import Idealize.ShloMosaic.Lib.ValueIdx

noncomputable section

namespace Cert.Dispersion

open Idealize.ShloMosaic Idealize.ShloMosaic.ValueIdx

variable {M : Type*} [AddCommMonoid M]

/-- What band `l` contributes to output column `n`: the cube's entry at column `n - l` when the shifted band
    reaches `n`, nothing otherwise. -/
def shifted (a : ℕ → ℕ → M) (n l : ℕ) : M := if l ≤ n ∧ n < l + 512 then a (n - l) l else 0

/-- Output column `n` after the bands below `k` have been added. -/
def partialSum (a : ℕ → ℕ → M) (k n : ℕ) : M := ∑ l ∈ Finset.range k, shifted a n l

theorem partialSum_zero (a : ℕ → ℕ → M) (n : ℕ) : partialSum a 0 n = 0 := by
  unfold partialSum; rw [Finset.range_zero, Finset.sum_empty]

/-- Adding band `k` to the bands below it. -/
theorem partialSum_succ (a : ℕ → ℕ → M) (k n : ℕ) : partialSum a (k + 1) n = partialSum a k n + shifted a n k := by
  unfold partialSum; rw [Finset.sum_range_succ]

/-- The sum over the flattened positions `e = 31 q + l` with `q + l = n` is the sum over the bands: position `e`
    goes to band `e % 31`, band `l` comes from position `31 (n - l) + l`. -/
theorem sum_shear (a : ℕ → ℕ → M) (n : ℕ) :
    ∑ e ∈ (Finset.univ : Finset (Fin 15872)).filter (fun e => e.val / 31 + e.val % 31 = n), a (e.val / 31) (e.val % 31)
      = partialSum a 31 n := by
  unfold partialSum shifted
  rw [← Finset.sum_filter]
  refine Finset.sum_bij' (fun e _ => e.val % 31)
    (fun l hl => (⟨(n - l) * 31 + l, by
        have h := Finset.mem_filter.mp hl
        have h1 := Finset.mem_range.mp h.1
        have h2 := h.2
        omega⟩ : Fin 15872)) ?_ ?_ ?_ ?_ ?_
  · intro e he
    have h := (Finset.mem_filter.mp he).2
    have hlt := e.isLt
    simp only [Finset.mem_filter, Finset.mem_range]
    omega
  · intro l hl
    have h := Finset.mem_filter.mp hl
    have h1 := Finset.mem_range.mp h.1
    have h2 := h.2
    simp only [Finset.mem_filter, Finset.mem_univ, true_and]
    omega
  · intro e he
    have h := (Finset.mem_filter.mp he).2
    apply Fin.ext
    simp only
    omega
  · intro l hl
    have h := Finset.mem_filter.mp hl
    have h1 := Finset.mem_range.mp h.1
    have h2 := h.2
    simp only
    omega
  · intro e he
    have h := (Finset.mem_filter.mp he).2
    have e1 : e.val / 31 = n - e.val % 31 := by omega
    rw [e1]

/-! ## The modulated cube of the two arguments -/

/-- The spectral cube's shape, and the coded aperture's. -/
abbrev CubeShape : Shape := ⟨5, ![8, 512, 512, 31, 1]⟩
abbrev MaskShape : Shape := ⟨5, ![1, 512, 512, 1, 1]⟩

/-- Batch `b`, row `m` of the cube modulated by the aperture: entry `(q, l)` is `x[b, m, q, l, 0] · H[0, m, q, 0, 0]`,
    as a function on naturals (zero outside the cube, where no band ever reads it). -/
def cube (x : CubeShape.Idx → EReal) (h : MaskShape.Idx → EReal) (b : Fin 8) (m : Fin 512) (q l : ℕ) : EReal :=
  if hq : q < 512 ∧ l < 31 then x (ix5 b m ⟨q, hq.1⟩ ⟨l, hq.2⟩ (0 : Fin 1)) * h (ix5 (0 : Fin 1) m ⟨q, hq.1⟩ (0 : Fin 1) (0 : Fin 1))
  else 0

/-- The snapshot before normalisation: entry `(b, m, n)` is the dispersion sum of row `m` of batch `b`. -/
def snapshot (x : CubeShape.Idx → EReal) (h : MaskShape.Idx → EReal) : (⟨3, ![8, 512, 542]⟩ : Shape).Idx → EReal :=
  fun i => partialSum (cube x h (i 0) (i 1)) 31 (i 2).val

end Cert.Dispersion

end
-- ==== Proof.BandStep.lean ====
/-
  One band added into the accumulator, as contents.

  The accumulator is a [128, 542] buffer; the product of the cube tile and the aperture tile is [128, 512, 31].
  Band `l` is added by reading the accumulator's columns `l … l + 511`, adding band `l` of the product, and storing
  the sum back over the same columns. Written as a list of stores (latest first), the buffer's contents after that
  store are: outside the columns `l … l + 511` what the earlier stores left, and at column `n` inside them the
  earlier contents at `n` plus the product's entry `(r, n - l, l)`. So if the earlier stores left the partial
  dispersion sum of the bands below `l`, this store leaves the partial sum of the bands below `l + 1`.
-/
import Idealize.ShloMosaic.Lib.Pipeline.Value
import Idealize.ShloMosaic.Lib.Pipeline.FrameBody
import Idealize.ShloMosaic.Lib.ValueIdx
import Idealize.ShloMosaic.Lib.ValueLayout
import proofs.«126580_j38439957299667_1_alg».proof.Proof.Dispersion

set_option maxRecDepth 16384

noncomputable section

namespace Cert.BandStep

open Idealize.ShloMosaic Idealize.ShloMosaic.ValueIdx Cert.Dispersion

/-- The accumulator, one band's columns of it, the product, and one band of the product kept as a column. -/
abbrev Acc : Shape := ⟨2, ![128, 542]⟩
abbrev Tile : Shape := ⟨2, ![128, 512]⟩
abbrev Prod : Shape := ⟨3, ![128, 512, 31]⟩
abbrev Col : Shape := ⟨3, ![128, 512, 1]⟩

section Payload
variable {F : FTy → Type} [FloatOps F]

/-- What one band's store writes: the columns read back, plus band `l` of the product. -/
def bandPay (l : ℕ) (hs : Prod.Slices ![0, 0, l] Col) (hc : Col.ShapeCasts Tile) (hi : Tile.ShapeCasts Tile)
    (prod : FVec F Prod .f32) (w : Vec F Tile .f32) : FVec F Tile .f32 :=
  shapeCast Tile (addf w (shapeCast Tile (extractStridedSlice Col ![0, 0, l] prod hs) hc)) hi

end Payload

/-- Row `r` of the product as a function of column and band on naturals (zero outside the tile). -/
def rowOf (prod : Prod.Idx → EReal) (r : Fin 128) (q l : ℕ) : EReal :=
  if h : q < 512 ∧ l < 31 then prod (ix3 r ⟨q, h.1⟩ ⟨l, h.2⟩) else 0

/-- Read at row `r`, column `q`: the read-back entry plus the product's entry at band `l`. -/
theorem bandPay_apply (l : ℕ) (hl : l < 31) (hs : Prod.Slices ![0, 0, l] Col) (hc : Col.ShapeCasts Tile)
    (hi : Tile.ShapeCasts Tile) (prod : FVec Ideal Prod .f32) (w : Vec Ideal Tile .f32) (r : Fin 128) (q : Fin 512) :
    bandPay l hs hc hi prod w (ix2 r q) = w (ix2 r q) + prod (ix3 r q ⟨l, hl⟩) := by
  unfold bandPay
  rw [shapeCast_self]
  show w (ix2 r q) + shapeCast Tile (extractStridedSlice Col ![0, 0, l] prod hs) hc (ix2 r q) = _
  congr 1
  refine (shapeCast_apply _ hc (ix2 r q) (ix3 r q (0 : Fin 1)) ?_).trans ?_
  · rw [Shape.rowMajor_val_three, Shape.rowMajor_val_two]
    show (r.val * 512 + q.val) * 1 + 0 = r.val * 512 + q.val
    omega
  · exact extractStridedSlice_apply ![0, 0, l] prod hs (ix3 r q (0 : Fin 1)) (ix3 r q ⟨l, hl⟩) fun a =>
      match a with
      | ⟨0, _⟩ => by show r.val = 0 + r.val; omega
      | ⟨1, _⟩ => by show q.val = 0 + q.val; omega
      | ⟨2, _⟩ => by show l = l + 0; omega

/-- The accumulator's contents when the bands below `k` have been added: the partial dispersion sums of each row. -/
def stateAfter (prod : Prod.Idx → EReal) (k : ℕ) : Acc.Idx → EReal :=
  fun y => partialSum (rowOf prod (y 0)) k (y 1).val

/-- The accumulator's columns `l … l + 511`, all 128 rows. -/
abbrev bandRect (l : ℕ) (inb : ∀ a, (![0, l] : Fin 2 → ℕ) a + (![128, 512] : Fin 2 → ℕ) a ≤ Acc.size a) : Rect Acc :=
  Rect.unit (s := Acc) ![0, l] ![128, 512] inb

section Step
variable {sig : RefSig} {κ : Kind} {sp : Space}

/-- The contents after band `l`'s store, at row `r` and column `n`: the earlier contents there plus what band `l`
    contributes to column `n`. -/
theorem canon_band (v : View sig κ sp Acc .f32) (l : ℕ) (hl : l < 31)
    (inb : ∀ a, (![0, l] : Fin 2 → ℕ) a + (![128, 512] : Fin 2 → ℕ) a ≤ Acc.size a)
    (hs : Prod.Slices ![0, 0, l] Col) (hc : Col.ShapeCasts Tile) (hi : Tile.ShapeCasts Tile)
    (prod : FVec Ideal Prod .f32) (L : List (View.Piece (Elt Ideal) Acc .f32)) (r : Fin 128) (n : Fin 542) :
    View.canon ((⟨bandRect l inb,
        bandPay l hs hc hi prod (v.readCov L (bandRect l inb).toLoadRect)⟩ : View.Piece (Elt Ideal) Acc .f32) :: L) (ix2 r n)
      = View.canon L (ix2 r n) + shifted (rowOf prod r) n.val l := by
  unfold shifted
  by_cases h : l ≤ n.val ∧ n.val < l + 512
  · rw [if_pos h]
    have hq : n.val - l < 512 := by omega
    have he : (ix2 r n : Acc.Idx) = (bandRect l inb).emb (ix2 r ⟨n.val - l, hq⟩) := by
      funext a
      match a with
      | ⟨0, _⟩ => exact Fin.ext (by show r.val = 0 + 1 * r.val; omega)
      | ⟨1, _⟩ => exact Fin.ext (by show n.val = l + 1 * (n.val - l); omega)
    rw [he, View.canon_cons_emb, bandPay_apply l hl, View.readCov_eq_canon']
    congr 1
    unfold rowOf
    rw [dif_pos ⟨hq, hl⟩]
  · rw [if_neg h, add_zero]
    refine View.canon_cons_of_not_mem _ L ?_
    intro hm
    have hm' : (ix2 r n : Acc.Idx) ∈ (Rect.unit (s := Acc) ![0, l] ![128, 512] inb).set := hm
    have h1 := (Rect.mem_set_unit.mp hm') (1 : Fin 2)
    exact h ⟨h1.1, h1.2⟩

/-- So a store of band `l` over the partial sums of the bands below `l` leaves the partial sums of the bands below
    `l + 1`. -/
theorem canon_band_state (v : View sig κ sp Acc .f32) (l : ℕ) (hl : l < 31)
    (inb : ∀ a, (![0, l] : Fin 2 → ℕ) a + (![128, 512] : Fin 2 → ℕ) a ≤ Acc.size a)
    (hs : Prod.Slices ![0, 0, l] Col) (hc : Col.ShapeCasts Tile) (hi : Tile.ShapeCasts Tile)
    (prod : FVec Ideal Prod .f32) (L : List (View.Piece (Elt Ideal) Acc .f32))
    (hL : View.canon L = stateAfter prod l) :
    View.canon ((⟨bandRect l inb,
        bandPay l hs hc hi prod (v.readCov L (bandRect l inb).toLoadRect)⟩ : View.Piece (Elt Ideal) Acc .f32) :: L)
      = stateAfter prod (l + 1) := by
  funext y
  obtain ⟨r, n, rfl⟩ : ∃ (r : Fin 128) (n : Fin 542), y = ix2 r n := ⟨y 0, y 1, eq_ix2 y⟩
  rw [canon_band v l hl inb hs hc hi prod L r n, hL]
  unfold stateAfter
  rw [partialSum_succ]

end Step

end Cert.BandStep

end
-- ==== Proof.KernelBody.lean ====
/-
  What one grid point leaves in its output block.

  The body multiplies the cube tile by the aperture tile, zeroes the accumulator, adds the 31 bands one after the other
  (each through the accumulator's own columns, read back and stored again), and copies the accumulator to the output
  block. The accumulator's contents after each store are named level by level: after the zero fill the partial sums
  of no band, and after band `l`'s store the partial sums of the bands below `l + 1` (the generic step). The output
  block is the last level read back whole, with a leading unit axis added.
-/
import proofs.«126580_j38439957299667_1_alg».proof.Proof.Gen.KernelIdeal.Frame
import proofs.«126580_j38439957299667_1_alg».proof.Proof.BandStep
import Idealize.ShloMosaic.PureOps.Ideal.Laws
import Idealize.ShloMosaic.Lib.Tactic

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.BandStep Cert.Dispersion

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- After the zero fill the accumulator holds the empty partial sums, whatever the product. -/
theorem level0 (P : Prod.Idx → EReal) : View.canon (kernelRun0_A.sl.HS0_1 (F := Ideal)) = stateAfter P 0 := by
  unfold kernelRun0_A.sl.HS0_1
  rw [View.canon_unit_zero zero2]
  funext y
  unfold k0_pay6 stateAfter
  rw [partialSum_zero, shapeCast_self]
  exact Ideal.ofBits_zero_f32

/-- After band 0's store: the partial sums of the bands below 1. -/
theorem level1 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_2 (F := Ideal) c arg2 harg2 arg3 harg3 arg5 x0 x1) = stateAfter (kernelRun0_A.sl.r (F := Ideal) c arg2 harg2 arg3 harg3 x0 x1) 1 :=
  canon_band_state arg5.view 0 (by decide) _ _ _ _ (kernelRun0_A.sl.r (F := Ideal) c arg2 harg2 arg3 harg3 x0 x1) _ (level0 _)

/-- After band 1's store: the partial sums of the bands below 2. -/
theorem level2 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_3 (F := Ideal) c arg2 harg2 arg3 harg3 arg5 x0 x1) = stateAfter (kernelRun0_A.sl.r (F := Ideal) c arg2 harg2 arg3 harg3 x0 x1) 2 :=
  canon_band_state arg5.view 1 (by decide) _ _ _ _ (kernelRun0_A.sl.r (F := Ideal) c arg2 harg2 arg3 harg3 x0 x1) _ (level1 c arg2 harg2 arg3 harg3 arg5 x0 x1)

/-- After band 2's store: the partial sums of the bands below 3. -/
theorem level3 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_4 (F := Ideal) c arg2 harg2 arg3 harg3 arg5 x0 x1) = stateAfter (kernelRun0_A.sl.r (F := Ideal) c arg2 harg2 arg3 harg3 x0 x1) 3 :=
  canon_band_state arg5.view 2 (by decide) _ _ _ _ (kernelRun0_A.sl.r (F := Ideal) c arg2 harg2 arg3 harg3 x0 x1) _ (level2 c arg2 harg2 arg3 harg3 arg5 x0 x1)

/-- After band 3's store: the partial sums of the bands below 4. -/
theorem level4 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_5 (F := Ideal) c arg2 harg2 arg3 harg3 arg5 x0 x1) = stateAfter (kernelRun0_A.sl.r (F := Ideal) c arg2 harg2 arg3 harg3 x0 x1) 4 :=
  canon_band_state arg5.view 3 (by decide) _ _ _ _ (kernelRun0_A.sl.r (F := Ideal) c arg2 harg2 arg3 harg3 x0 x1) _ (level3 c arg2 harg2 arg3 harg3 arg5 x0 x1)

/-- After band 4's store: the partial sums of the bands below 5. -/
theorem level5 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_6 (F := Ideal) c arg2 harg2 arg3 harg3 arg5 x0 x1) = stateAfter (kernelRun0_A.sl.r (F := Ideal) c arg2 harg2 arg3 harg3 x0 x1) 5 :=
  canon_band_state arg5.view 4 (by decide) _ _ _ _ (kernelRun0_A.sl.r (F := Ideal) c arg2 harg2 arg3 harg3 x0 x1) _ (level4 c arg2 harg2 arg3 harg3 arg5 x0 x1)

/-- After band 5's store: the partial sums of the bands below 6. -/
theorem level6 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_7 (F := Ideal) c arg2 harg2 arg3 harg3 arg5 x0 x1) = stateAfter (kernelRun0_A.sl.r (F := Ideal) c arg2 harg2 arg3 harg3 x0 x1) 6 :=
  canon_band_state arg5.view 5 (by decide) _ _ _ _ (kernelRun0_A.sl.r (F := Ideal) c arg2 harg2 arg3 harg3 x0 x1) _ (level5 c arg2 harg2 arg3 harg3 arg5 x0 x1)

/-- After band 6's store: the partial sums of the bands below 7. -/
theorem level7 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_8 (F := Ideal) c arg2 harg2 arg3 harg3 arg5 x0 x1) = stateAfter (kernelRun0_A.sl.r (F := Ideal) c arg2 harg2 arg3 harg3 x0 x1) 7 :=
  canon_band_state arg5.view 6 (by decide) _ _ _ _ (kernelRun0_A.sl.r (F := Ideal) c arg2 harg2 arg3 harg3 x0 x1) _ (level6 c arg2 harg2 arg3 harg3 arg5 x0 x1)

/-- After band 7's store: the partial sums of the bands below 8. -/
theorem level8 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_9 (F := Ideal) c arg2 harg2 arg3 harg3 arg5 x0 x1) = stateAfter (kernelRun0_A.sl.r (F := Ideal) c arg2 harg2 arg3 harg3 x0 x1) 8 :=
  canon_band_state arg5.view 7 (by decide) _ _ _ _ (kernelRun0_A.sl.r (F := Ideal) c arg2 harg2 arg3 harg3 x0 x1) _ (level7 c arg2 harg2 arg3 harg3 arg5 x0 x1)

/-- After band 8's store: the partial sums of the bands below 9. -/
theorem level9 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_10 (F := Ideal) c arg2 harg2 arg3 harg3 arg5 x0 x1) = stateAfter (kernelRun0_A.sl.r (F := Ideal) c arg2 harg2 arg3 harg3 x0 x1) 9 :=
  canon_band_state arg5.view 8 (by decide) _ _ _ _ (kernelRun0_A.sl.r (F := Ideal) c arg2 harg2 arg3 harg3 x0 x1) _ (level8 c arg2 harg2 arg3 harg3 arg5 x0 x1)

/-- After band 9's store: the partial sums of the bands below 10. -/
theorem level10 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_11 (F := Ideal) c arg2 harg2 arg3 harg3 arg5 x0 x1) = stateAfter (kernelRun0_A.sl.r (F := Ideal) c arg2 harg2 arg3 harg3 x0 x1) 10 :=
  canon_band_state arg5.view 9 (by decide) _ _ _ _ (kernelRun0_A.sl.r (F := Ideal) c arg2 harg2 arg3 harg3 x0 x1) _ (level9 c arg2 harg2 arg3 harg3 arg5 x0 x1)

/-- After band 10's store: the partial sums of the bands below 11. -/
theorem level11 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_12 (F := Ideal) c arg2 harg2 arg3 harg3 arg5 x0 x1) = stateAfter (kernelRun0_A.sl.r (F := Ideal) c arg2 harg2 arg3 harg3 x0 x1) 11 :=
  canon_band_state arg5.view 10 (by decide) _ _ _ _ (kernelRun0_A.sl.r (F := Ideal) c arg2 harg2 arg3 harg3 x0 x1) _ (level10 c arg2 harg2 arg3 harg3 arg5 x0 x1)

/-- After band 11's store: the partial sums of the bands below 12. -/
theorem level12 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_13 (F := Ideal) c arg2 harg2 arg3 harg3 arg5 x0 x1) = stateAfter (kernelRun0_A.sl.r (F := Ideal) c arg2 harg2 arg3 harg3 x0 x1) 12 :=
  canon_band_state arg5.view 11 (by decide) _ _ _ _ (kernelRun0_A.sl.r (F := Ideal) c arg2 harg2 arg3 harg3 x0 x1) _ (level11 c arg2 harg2 arg3 harg3 arg5 x0 x1)

/-- After band 12's store: the partial sums of the bands below 13. -/
theorem level13 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_14 (F := Ideal) c arg2 harg2 arg3 harg3 arg5 x0 x1) = stateAfter (kernelRun0_A.sl.r (F := Ideal) c arg2 harg2 arg3 harg3 x0 x1) 13 :=
  canon_band_state arg5.view 12 (by decide) _ _ _ _ (kernelRun0_A.sl.r (F := Ideal) c arg2 harg2 arg3 harg3 x0 x1) _ (level12 c arg2 harg2 arg3 harg3 arg5 x0 x1)

/-- After band 13's store: the partial sums of the bands below 14. -/
theorem level14 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_15 (F := Ideal) c arg2 harg2 arg3 harg3 arg5 x0 x1) = stateAfter (kernelRun0_A.sl.r (F := Ideal) c arg2 harg2 arg3 harg3 x0 x1) 14 :=
  canon_band_state arg5.view 13 (by decide) _ _ _ _ (kernelRun0_A.sl.r (F := Ideal) c arg2 harg2 arg3 harg3 x0 x1) _ (level13 c arg2 harg2 arg3 harg3 arg5 x0 x1)

/-- After band 14's store: the partial sums of the bands below 15. -/
theorem level15 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_16 (F := Ideal) c arg2 harg2 arg3 harg3 arg5 x0 x1) = stateAfter (kernelRun0_A.sl.r (F := Ideal) c arg2 harg2 arg3 harg3 x0 x1) 15 :=
  canon_band_state arg5.view 14 (by decide) _ _ _ _ (kernelRun0_A.sl.r (F := Ideal) c arg2 harg2 arg3 harg3 x0 x1) _ (level14 c arg2 harg2 arg3 harg3 arg5 x0 x1)

/-- After band 15's store: the partial sums of the bands below 16. -/
theorem level16 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_17 (F := Ideal) c arg2 harg2 arg3 harg3 arg5 x0 x1) = stateAfter (kernelRun0_A.sl.r (F := Ideal) c arg2 harg2 arg3 harg3 x0 x1) 16 :=
  canon_band_state arg5.view 15 (by decide) _ _ _ _ (kernelRun0_A.sl.r (F := Ideal) c arg2 harg2 arg3 harg3 x0 x1) _ (level15 c arg2 harg2 arg3 harg3 arg5 x0 x1)

/-- After band 16's store: the partial sums of the bands below 17. -/
theorem level17 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_18 (F := Ideal) c arg2 harg2 arg3 harg3 arg5 x0 x1) = stateAfter (kernelRun0_A.sl.r (F := Ideal) c arg2 harg2 arg3 harg3 x0 x1) 17 :=
  canon_band_state arg5.view 16 (by decide) _ _ _ _ (kernelRun0_A.sl.r (F := Ideal) c arg2 harg2 arg3 harg3 x0 x1) _ (level16 c arg2 harg2 arg3 harg3 arg5 x0 x1)

/-- After band 17's store: the partial sums of the bands below 18. -/
theorem level18 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_19 (F := Ideal) c arg2 harg2 arg3 harg3 arg5 x0 x1) = stateAfter (kernelRun0_A.sl.r (F := Ideal) c arg2 harg2 arg3 harg3 x0 x1) 18 :=
  canon_band_state arg5.view 17 (by decide) _ _ _ _ (kernelRun0_A.sl.r (F := Ideal) c arg2 harg2 arg3 harg3 x0 x1) _ (level17 c arg2 harg2 arg3 harg3 arg5 x0 x1)

/-- After band 18's store: the partial sums of the bands below 19. -/
theorem level19 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_20 (F := Ideal) c arg2 harg2 arg3 harg3 arg5 x0 x1) = stateAfter (kernelRun0_A.sl.r (F := Ideal) c arg2 harg2 arg3 harg3 x0 x1) 19 :=
  canon_band_state arg5.view 18 (by decide) _ _ _ _ (kernelRun0_A.sl.r (F := Ideal) c arg2 harg2 arg3 harg3 x0 x1) _ (level18 c arg2 harg2 arg3 harg3 arg5 x0 x1)

/-- After band 19's store: the partial sums of the bands below 20. -/
theorem level20 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_21 (F := Ideal) c arg2 harg2 arg3 harg3 arg5 x0 x1) = stateAfter (kernelRun0_A.sl.r (F := Ideal) c arg2 harg2 arg3 harg3 x0 x1) 20 :=
  canon_band_state arg5.view 19 (by decide) _ _ _ _ (kernelRun0_A.sl.r (F := Ideal) c arg2 harg2 arg3 harg3 x0 x1) _ (level19 c arg2 harg2 arg3 harg3 arg5 x0 x1)

/-- After band 20's store: the partial sums of the bands below 21. -/
theorem level21 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_22 (F := Ideal) c arg2 harg2 arg3 harg3 arg5 x0 x1) = stateAfter (kernelRun0_A.sl.r (F := Ideal) c arg2 harg2 arg3 harg3 x0 x1) 21 :=
  canon_band_state arg5.view 20 (by decide) _ _ _ _ (kernelRun0_A.sl.r (F := Ideal) c arg2 harg2 arg3 harg3 x0 x1) _ (level20 c arg2 harg2 arg3 harg3 arg5 x0 x1)

/-- After band 21's store: the partial sums of the bands below 22. -/
theorem level22 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_23 (F := Ideal) c arg2 harg2 arg3 harg3 arg5 x0 x1) = stateAfter (kernelRun0_A.sl.r (F := Ideal) c arg2 harg2 arg3 harg3 x0 x1) 22 :=
  canon_band_state arg5.view 21 (by decide) _ _ _ _ (kernelRun0_A.sl.r (F := Ideal) c arg2 harg2 arg3 harg3 x0 x1) _ (level21 c arg2 harg2 arg3 harg3 arg5 x0 x1)

/-- After band 22's store: the partial sums of the bands below 23. -/
theorem level23 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_24 (F := Ideal) c arg2 harg2 arg3 harg3 arg5 x0 x1) = stateAfter (kernelRun0_A.sl.r (F := Ideal) c arg2 harg2 arg3 harg3 x0 x1) 23 :=
  canon_band_state arg5.view 22 (by decide) _ _ _ _ (kernelRun0_A.sl.r (F := Ideal) c arg2 harg2 arg3 harg3 x0 x1) _ (level22 c arg2 harg2 arg3 harg3 arg5 x0 x1)

/-- After band 23's store: the partial sums of the bands below 24. -/
theorem level24 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_25 (F := Ideal) c arg2 harg2 arg3 harg3 arg5 x0 x1) = stateAfter (kernelRun0_A.sl.r (F := Ideal) c arg2 harg2 arg3 harg3 x0 x1) 24 :=
  canon_band_state arg5.view 23 (by decide) _ _ _ _ (kernelRun0_A.sl.r (F := Ideal) c arg2 harg2 arg3 harg3 x0 x1) _ (level23 c arg2 harg2 arg3 harg3 arg5 x0 x1)

/-- After band 24's store: the partial sums of the bands below 25. -/
theorem level25 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_26 (F := Ideal) c arg2 harg2 arg3 harg3 arg5 x0 x1) = stateAfter (kernelRun0_A.sl.r (F := Ideal) c arg2 harg2 arg3 harg3 x0 x1) 25 :=
  canon_band_state arg5.view 24 (by decide) _ _ _ _ (kernelRun0_A.sl.r (F := Ideal) c arg2 harg2 arg3 harg3 x0 x1) _ (level24 c arg2 harg2 arg3 harg3 arg5 x0 x1)

/-- After band 25's store: the partial sums of the bands below 26. -/
theorem level26 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_27 (F := Ideal) c arg2 harg2 arg3 harg3 arg5 x0 x1) = stateAfter (kernelRun0_A.sl.r (F := Ideal) c arg2 harg2 arg3 harg3 x0 x1) 26 :=
  canon_band_state arg5.view 25 (by decide) _ _ _ _ (kernelRun0_A.sl.r (F := Ideal) c arg2 harg2 arg3 harg3 x0 x1) _ (level25 c arg2 harg2 arg3 harg3 arg5 x0 x1)

/-- After band 26's store: the partial sums of the bands below 27. -/
theorem level27 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_28 (F := Ideal) c arg2 harg2 arg3 harg3 arg5 x0 x1) = stateAfter (kernelRun0_A.sl.r (F := Ideal) c arg2 harg2 arg3 harg3 x0 x1) 27 :=
  canon_band_state arg5.view 26 (by decide) _ _ _ _ (kernelRun0_A.sl.r (F := Ideal) c arg2 harg2 arg3 harg3 x0 x1) _ (level26 c arg2 harg2 arg3 harg3 arg5 x0 x1)

/-- After band 27's store: the partial sums of the bands below 28. -/
theorem level28 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_29 (F := Ideal) c arg2 harg2 arg3 harg3 arg5 x0 x1) = stateAfter (kernelRun0_A.sl.r (F := Ideal) c arg2 harg2 arg3 harg3 x0 x1) 28 :=
  canon_band_state arg5.view 27 (by decide) _ _ _ _ (kernelRun0_A.sl.r (F := Ideal) c arg2 harg2 arg3 harg3 x0 x1) _ (level27 c arg2 harg2 arg3 harg3 arg5 x0 x1)

/-- After band 28's store: the partial sums of the bands below 29. -/
theorem level29 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_30 (F := Ideal) c arg2 harg2 arg3 harg3 arg5 x0 x1) = stateAfter (kernelRun0_A.sl.r (F := Ideal) c arg2 harg2 arg3 harg3 x0 x1) 29 :=
  canon_band_state arg5.view 28 (by decide) _ _ _ _ (kernelRun0_A.sl.r (F := Ideal) c arg2 harg2 arg3 harg3 x0 x1) _ (level28 c arg2 harg2 arg3 harg3 arg5 x0 x1)

/-- After band 29's store: the partial sums of the bands below 30. -/
theorem level30 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_31 (F := Ideal) c arg2 harg2 arg3 harg3 arg5 x0 x1) = stateAfter (kernelRun0_A.sl.r (F := Ideal) c arg2 harg2 arg3 harg3 x0 x1) 30 :=
  canon_band_state arg5.view 29 (by decide) _ _ _ _ (kernelRun0_A.sl.r (F := Ideal) c arg2 harg2 arg3 harg3 x0 x1) _ (level29 c arg2 harg2 arg3 harg3 arg5 x0 x1)

/-- After band 30's store: the partial sums of the bands below 31. -/
theorem level31 (c : Dev nD) (arg2 : Memref sig .tc .vmem S1x128x512x31 .f32) (harg2 : arg2.IsWhole)
    (arg3 : Memref sig .tc .vmem S128x512 .f32) (harg3 : arg3.IsWhole) (arg5 : Memref sig .tc .vmem S128x542 .f32)
    (x0 : Vec Ideal S1x128x512x31 .f32) (x1 : Vec Ideal S128x512 .f32) :
    View.canon (kernelRun0_A.sl.HS0_32 (F := Ideal) c arg2 harg2 arg3 harg3 arg5 x0 x1) = stateAfter (kernelRun0_A.sl.r (F := Ideal) c arg2 harg2 arg3 harg3 x0 x1) 31 :=
  canon_band_state arg5.view 30 (by decide) _ _ _ _ (kernelRun0_A.sl.r (F := Ideal) c arg2 harg2 arg3 harg3 x0 x1) _ (level30 c arg2 harg2 arg3 harg3 arg5 x0 x1)

/-- The product tile: entry `(r, q, l)` is the cube tile's entry there times the aperture tile's entry of the same
    row and column (the aperture tile is given a unit band axis and repeated along it). -/
theorem product_apply (x1 : Vec Ideal S128x512 .f32) (x0 : Vec Ideal S1x128x512x31 .f32) (r : Fin 128) (q : Fin 512)
    (l : Fin 31) : k0_pay5 (F := Ideal) x1 x0 (ix3 r q l) = x0 (ix4 (0 : Fin 1) r q l) * x1 (ix2 r q) := by
  unfold k0_pay5
  show shapeCast S128x512x31 x0 shapeCasts_S1x128x512x31_S128x512x31 (ix3 r q l)
      * broadcastTo S128x512x31 (shapeCast S128x512x1 (shapeCast S128x512 x1 shapeCasts_S128x512_S128x512)
          shapeCasts_S128x512_S128x512x1) broadcasts_S128x512x1_S128x512x31 (ix3 r q l) = _
  congr 1
  · exact shapeCast_1abc_abc_apply x0 _ r q l
  · refine (broadcastTo_apply _ broadcasts_S128x512x1_S128x512x31 (ix3 r q l) (ix3 r q (0 : Fin 1)) ?_).trans ?_
    · intro a
      match a with
      | ⟨0, _⟩ => show r.val = if (128 : Nat) = 1 then 0 else r.val; rw [if_neg (by decide)]
      | ⟨1, _⟩ => show q.val = if (512 : Nat) = 1 then 0 else q.val; rw [if_neg (by decide)]
      | ⟨2, _⟩ => show 0 = if (1 : Nat) = 1 then 0 else l.val; rw [if_pos rfl]
    · refine (shapeCast_apply _ shapeCasts_S128x512_S128x512x1 (ix3 r q (0 : Fin 1)) (ix2 r q) ?_).trans ?_
      · rw [Shape.rowMajor_val_two, Shape.rowMajor_val_three]
        show r.val * 512 + q.val = (r.val * 512 + q.val) * 1 + 0
        omega
      · rw [shapeCast_self]

/-- Row `r` of the product tile, on naturals: the cube tile's row times the aperture tile's row, zero outside. -/
theorem rowOf_product (x1 : Vec Ideal S128x512 .f32) (x0 : Vec Ideal S1x128x512x31 .f32) (r : Fin 128) (q l : ℕ) :
    rowOf (k0_pay5 (F := Ideal) x1 x0) r q l
      = if h : q < 512 ∧ l < 31 then x0 (ix4 (0 : Fin 1) r ⟨q, h.1⟩ ⟨l, h.2⟩) * x1 (ix2 r ⟨q, h.1⟩) else 0 := by
  unfold rowOf
  by_cases h : q < 512 ∧ l < 31
  · rw [dif_pos h, dif_pos h, product_apply]
  · rw [dif_neg h, dif_neg h]

/-- WHAT A POINT LEAVES IN ITS OUTPUT BLOCK: entry `(u, r, n)` is the dispersion sum of row `r` of the product of the
    point's two input blocks, at column `n`. -/
theorem block_apply (c : Dev nD) (i : grid0.Coords) (arg2 : Memref sig .tc .vmem S1x128x512x31 .f32) (harg2 : arg2.IsWhole)
    (arg3 : Memref sig .tc .vmem S128x512 .f32) (harg3 : arg3.IsWhole) (arg4 : Memref sig .tc .vmem S1x128x542 .f32)
    (harg4 : arg4.IsWhole) (arg5 : Memref sig .tc .vmem S128x542 .f32) (harg5 : arg5.IsWhole)
    (x0 : Vec Ideal S1x128x512x31 .f32) (x1 : Vec Ideal S128x512 .f32) (u : Fin 1) (r : Fin 128) (n : Fin 542) :
    out0_A_2 (F := Ideal) c i arg2 harg2 arg3 harg3 arg4 harg4 arg5 harg5 x0 x1 (ix3 u r n)
      = partialSum (rowOf (k0_pay5 (F := Ideal) x1 x0) r) 31 n.val := by
  unfold out0_A_2
  rw [View.read_writes_eq_canon _ _ _ (cover0_A_2 c i arg2 harg2 arg3 harg3 arg4 harg4 arg5 harg5 x0 x1)]
  unfold kernelRun0_A
  dsimp only
  rw [View.canon_unit_zero zero3]
  unfold k0_pay4
  refine (shapeCast_ab_1ab_apply _ shapeCasts_S128x542_S1x128x542 u r n).trans ?_
  unfold kernelRun0_A.sl.v228
  rw [View.readCov_eq_canon']
  have hi : (Rect.unit (s := S128x542) ![0, 0] ![128, 542] inb_S128x542_S128x542_0_0).toLoadRect.idx (ix2 r n) = ix2 r n := by
    funext a
    match a with
    | ⟨0, _⟩ => exact Fin.ext (by show 0 + 1 * r.val = r.val; omega)
    | ⟨1, _⟩ => exact Fin.ext (by show 0 + 1 * n.val = n.val; omega)
  show View.canon (kernelRun0_A.sl.HS0_32 (F := Ideal) c arg2 harg2 arg3 harg3 arg5 x0 x1)
      ((Rect.unit (s := S128x542) ![0, 0] ![128, 542] inb_S128x542_S128x542_0_0).toLoadRect.idx (ix2 r n)) = _
  rw [hi, level31]
  have hr : kernelRun0_A.sl.r (F := Ideal) c arg2 harg2 arg3 harg3 x0 x1 = k0_pay5 (F := Ideal) x1 x0 := by
    unfold kernelRun0_A.sl.r
    simp only [View.readAt_eq_ld, harg2.read_unread, harg3.read_unread, View.ld_unit_zero (S := S128x512) zero2,
      View.ld_unit_zero (S := S1x128x512x31) zero4]
  rw [hr]
  rfl

/-- The same at any index of the block. -/
theorem block_at (c : Dev nD) (i : grid0.Coords) (arg2 : Memref sig .tc .vmem S1x128x512x31 .f32) (harg2 : arg2.IsWhole)
    (arg3 : Memref sig .tc .vmem S128x512 .f32) (harg3 : arg3.IsWhole) (arg4 : Memref sig .tc .vmem S1x128x542 .f32)
    (harg4 : arg4.IsWhole) (arg5 : Memref sig .tc .vmem S128x542 .f32) (harg5 : arg5.IsWhole)
    (x0 : Vec Ideal S1x128x512x31 .f32) (x1 : Vec Ideal S128x512 .f32) (j : S1x128x542.Idx) :
    out0_A_2 (F := Ideal) c i arg2 harg2 arg3 harg3 arg4 harg4 arg5 harg5 x0 x1 j
      = partialSum (rowOf (k0_pay5 (F := Ideal) x1 x0) (j 1)) 31 (j 2).val := by
  exact (congrArg (fun k : S1x128x542.Idx => out0_A_2 (F := Ideal) c i arg2 harg2 arg3 harg3 arg4 harg4 arg5 harg5 x0 x1 k)
    (eq_ix3 j)).trans (block_apply c i arg2 harg2 arg3 harg3 arg4 harg4 arg5 harg5 x0 x1 (j 0) (j 1) (j 2))

end Cert.KernelIdeal.Body

end
-- ==== Proof.KernelArray.lean ====
/-
  From the grid points' blocks to the whole snapshot array.

  The grid has 8 × 4 points `(b, k)`. Point `(b, k)` reads rows `128 k … 128 k + 127` of batch `b` of the cube (all
  columns and bands) and the same rows of the aperture, and writes rows `128 k … 128 k + 127` of batch `b` of the
  snapshot (all 542 columns). Before the region the host drops the cube's trailing unit axis and the aperture's three
  unit axes, so the cube tile's entry `(0, r, q, l)` is `x[b, 128 k + r, q, l, 0]` and the aperture tile's entry
  `(r, q)` is `H[0, 128 k + r, q, 0, 0]`. Each point's block is therefore the matching block of ONE array, the
  dispersion sums of the modulated cube, and the blocks cover the array: after the region it holds that array.
-/
import proofs.«126580_j38439957299667_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.Snapshot

open Cert.KernelIdeal Cert.KernelIdeal.Gen Idealize.ShloMosaic Idealize.ShloMosaic.TcCoe Idealize.SL.Sem
open Idealize.ShloMosaic.Pipeline (Dat)
open Idealize.ShloMosaic.ValueIdx Cert.BandStep Cert.Dispersion Cert.KernelIdeal.Body

variable (m : (ℓ : Loc nD τ sig) → Buf (Elt Ideal) ℓ) (ρ : Dev nD → PrngReg)

/-! ## What the region finds: the arguments with their unit axes dropped -/

theorem V_v0 (c : Dev nD) : (V m c main_v0 : S8x512x512x31.Idx → Ideal .f32)
    = shapeCast S8x512x512x31 (m ((c : Thread nD τ).loc main_arg0)) shapeCasts_S8x512x512x31x1_S8x512x512x31 := by
  show StableHlo.after hostOps0 (fun b => m (c, b)) (Proc.devRef .tc main_v0) = _
  after_results
  rfl

theorem V_v1 (c : Dev nD) : (V m c main_v1 : S512x512.Idx → Ideal .f32)
    = shapeCast S512x512 (m ((c : Thread nD τ).loc main_arg1)) shapeCasts_S1x512x512x1x1_S512x512 := by
  show StableHlo.after hostOps0 (fun b => m (c, b)) (Proc.devRef .tc main_v1) = _
  after_results
  rfl

/-- The cube as the region finds it, at `(b, r, q, l)`, is the argument at `(b, r, q, l, 0)`. -/
theorem V_v0_apply (c : Dev nD) (b : Fin 8) (r : Fin 512) (q : Fin 512) (l : Fin 31) :
    (V m c main_v0 : S8x512x512x31.Idx → Ideal .f32) (ix4 b r q l)
      = m ((c : Thread nD τ).loc main_arg0) (ix5 b r q l (0 : Fin 1)) := by
  rw [V_v0]
  exact shapeCast_apply _ _ (ix4 b r q l) (ix5 b r q l (0 : Fin 1)) (by
    rw [Shape.rowMajor_val_five, Shape.rowMajor_val_four]
    show (((b.val * 512 + r.val) * 512 + q.val) * 31 + l.val) * 1 + 0 = ((b.val * 512 + r.val) * 512 + q.val) * 31 + l.val
    omega)

/-- The aperture as the region finds it, at `(r, q)`, is the argument at `(0, r, q, 0, 0)`. -/
theorem V_v1_apply (c : Dev nD) (r : Fin 512) (q : Fin 512) :
    (V m c main_v1 : S512x512.Idx → Ideal .f32) (ix2 r q)
      = m ((c : Thread nD τ).loc main_arg1) (ix5 (0 : Fin 1) r q (0 : Fin 1) (0 : Fin 1)) := by
  rw [V_v1]
  exact shapeCast_apply _ _ (ix2 r q) (ix5 (0 : Fin 1) r q (0 : Fin 1) (0 : Fin 1)) (by
    rw [Shape.rowMajor_val_five, Shape.rowMajor_val_two]
    show (((0 * 512 + r.val) * 512 + q.val) * 1 + 0) * 1 + 0 = r.val * 512 + q.val
    omega)

/-! ## The windows' index maps, decided once over the grid -/

theorem idx_facts : ∀ t : Fin cfg0.N,
    win0_0.index t (0 : Fin 4) = win0_2.index t (0 : Fin 3) ∧ win0_0.index t (1 : Fin 4) = win0_2.index t (1 : Fin 3)
    ∧ win0_0.index t (2 : Fin 4) = 0 ∧ win0_0.index t (3 : Fin 4) = 0
    ∧ win0_1.index t (0 : Fin 2) = win0_2.index t (1 : Fin 3) ∧ win0_1.index t (1 : Fin 2) = 0
    ∧ win0_2.index t (2 : Fin 3) = 0 ∧ win0_2.index t (0 : Fin 3) < 8 ∧ win0_2.index t (1 : Fin 3) < 4 :=
  (by decide +kernel : ∀ t : Fin grid0.N, _)

/-- Every (batch, row tile) is some point's. -/
theorem idx_onto : ∀ (q0 : Fin 8) (q1 : Fin 4), ∃ t : Fin cfg0.N, win0_2.index t = ![q0.val, q1.val, 0] :=
  (by decide +kernel : ∀ (q0 : Fin 8) (q1 : Fin 4), ∃ t : Fin grid0.N, win0_2.index t = ![q0.val, q1.val, 0])

/-! ## What a point writes back -/

/-- WHAT POINT `t` WRITES BACK is block `t` of the snapshot of the two arguments: the entry at `(u, r, n)` of the block
    is the dispersion sum of batch `b`, row `128 k + r`, at column `n`, because the point's cube tile and aperture tile
    are exactly that batch's and those rows' entries of the arguments. -/
theorem flushed_eq (c : Dev nD) (t : Fin cfg0.N) :
    (dats m 0 c).flushed 2 t
      = ((cfg0.win 2).blk t).view.read (Elt Ideal) (snapshot (m ((c : Thread nD τ).loc main_arg0)) (m ((c : Thread nD τ).loc main_arg1))) := by
  show (cfg0.win 2).cut (grid0.coords t) ((dats m 0 c).after 2 t) = _
  rw [after0_2]
  unfold outsAt0
  obtain ⟨e0, e1, e2, e3, e4, e5, e6, e7, e8⟩ := idx_facts t
  funext j
  have hj0 : (j 0).val < 1 := (j 0).isLt
  have hj1 : (j 1).val < 128 := (j 1).isLt
  have hB : win0_2.index t (0 : Fin 3) < 8 := e7
  have hR : win0_2.index t (1 : Fin 3) * 128 + (j 1).val < 512 := by omega
  have hout : ((cfg0.win 2).blk t).view.emb j
      = ix3 (⟨win0_2.index t (0 : Fin 3), hB⟩ : Fin 8) (⟨win0_2.index t (1 : Fin 3) * 128 + (j 1).val, hR⟩ : Fin 512) (⟨(j 2).val, (j 2).isLt⟩ : Fin 542) := by
    funext a; apply Fin.ext
    match a with
    | ⟨0, _⟩ => show win0_2.index t (0 : Fin 3) * 1 + 1 * (j 0).val = win0_2.index t (0 : Fin 3); omega
    | ⟨1, _⟩ => show win0_2.index t (1 : Fin 3) * 128 + 1 * (j 1).val = win0_2.index t (1 : Fin 3) * 128 + (j 1).val; omega
    | ⟨2, _⟩ => show win0_2.index t (2 : Fin 3) * 542 + 1 * (j 2).val = (j 2).val; omega
  refine (block_at c (grid0.coords t) (ms0_0 t) (hs0_0 t) (ms0_1 t) (hs0_1 t) (ms0_2 t) (hs0_2 t) scM0_0
    (Memref.isWhole_whole _) (iblk m c 0 t) (iblk m c 1 t) j).trans ?_
  show _ = snapshot (m ((c : Thread nD τ).loc main_arg0)) (m ((c : Thread nD τ).loc main_arg1)) (((cfg0.win 2).blk t).view.emb j)
  rw [hout]
  unfold snapshot
  show partialSum (rowOf (k0_pay5 (F := Ideal) (iblk m c 1 t) (iblk m c 0 t)) (j 1)) 31 (j 2).val
    = partialSum (cube (m ((c : Thread nD τ).loc main_arg0)) (m ((c : Thread nD τ).loc main_arg1)) (⟨win0_2.index t (0 : Fin 3), hB⟩ : Fin 8) (⟨win0_2.index t (1 : Fin 3) * 128 + (j 1).val, hR⟩ : Fin 512)) 31 (j 2).val
  congr 1
  funext q l
  refine (rowOf_product (iblk m c 1 t) (iblk m c 0 t) (j 1) q l).trans ?_
  unfold cube
  by_cases h : q < 512 ∧ l < 31
  · rw [dif_pos h, dif_pos h]
    congr 1
    · have hin : ((cfg0.win 0).blk t).view.emb (ix4 (0 : Fin 1) (j 1) (⟨q, h.1⟩ : Fin 512) (⟨l, h.2⟩ : Fin 31))
          = ix4 (⟨win0_2.index t (0 : Fin 3), hB⟩ : Fin 8) (⟨win0_2.index t (1 : Fin 3) * 128 + (j 1).val, hR⟩ : Fin 512) (⟨q, h.1⟩ : Fin 512) (⟨l, h.2⟩ : Fin 31) := by
        funext a; apply Fin.ext
        match a with
        | ⟨0, _⟩ => show win0_0.index t (0 : Fin 4) * 1 + 1 * 0 = win0_2.index t (0 : Fin 3); omega
        | ⟨1, _⟩ => show win0_0.index t (1 : Fin 4) * 128 + 1 * (j 1).val = win0_2.index t (1 : Fin 3) * 128 + (j 1).val; omega
        | ⟨2, _⟩ => show win0_0.index t (2 : Fin 4) * 512 + 1 * q = q; omega
        | ⟨3, _⟩ => show win0_0.index t (3 : Fin 4) * 31 + 1 * l = l; omega
      show (V m c main_v0 : S8x512x512x31.Idx → Ideal .f32)
          (((cfg0.win 0).blk t).view.emb (ix4 (0 : Fin 1) (j 1) (⟨q, h.1⟩ : Fin 512) (⟨l, h.2⟩ : Fin 31))) = _
      rw [hin, V_v0_apply]
    · have hin : ((cfg0.win 1).blk t).view.emb (ix2 (j 1) (⟨q, h.1⟩ : Fin 512)) = ix2 (⟨win0_2.index t (1 : Fin 3) * 128 + (j 1).val, hR⟩ : Fin 512) (⟨q, h.1⟩ : Fin 512) := by
        funext a; apply Fin.ext
        match a with
        | ⟨0, _⟩ => show win0_1.index t (0 : Fin 2) * 128 + 1 * (j 1).val = win0_2.index t (1 : Fin 3) * 128 + (j 1).val; omega
        | ⟨1, _⟩ => show win0_1.index t (1 : Fin 2) * 512 + 1 * q = q; omega
      show (V m c main_v1 : S512x512.Idx → Ideal .f32) (((cfg0.win 1).blk t).view.emb (ix2 (j 1) (⟨q, h.1⟩ : Fin 512))) = _
      rw [hin, V_v1_apply]
  · rw [dif_neg h, dif_neg h]

/-! ## The blocks cover the array -/

/-- An index of the array is in point `t`'s block iff each coordinate is in the block's range on its axis. -/
theorem mem_blk (t : Fin cfg0.N) (i : S8x512x542.Idx) :
    i ∈ ((cfg0.win 2).blk t).view.set ↔ ∀ a : Fin 3, win0_2.index t a * S1x128x542.size a ≤ (i a).val
      ∧ (i a).val < win0_2.index t a * S1x128x542.size a + S1x128x542.size a := by
  show i ∈ ((View.whole main_v2).slice (win0_2.rect t)).set ↔ _
  rw [View.set_slice_whole, Rect.mem_set_unit]
  exact Iff.rfl

/-- Entry `(b, r, n)` is in the block of the point `(b, r / 128)`. -/
theorem cover (i : S8x512x542.Idx) :
    ∃ t : Fin cfg0.N, (cfg0.win 2).flush t = true ∧ i ∈ ((cfg0.win 2).blk t).view.set := by
  have hi0 : (i 0).val < 8 := (i 0).isLt
  have hi1 : (i 1).val < 512 := (i 1).isLt
  have hi2 : (i 2).val < 542 := (i 2).isLt
  obtain ⟨t, ht⟩ := idx_onto ⟨(i 0).val, hi0⟩ ⟨(i 1).val / 128, by omega⟩
  have q0 : win0_2.index t (0 : Fin 3) = (i 0).val := congrFun ht 0
  have q1 : win0_2.index t (1 : Fin 3) = (i 1).val / 128 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 542 ≤ (i 2).val ∧ (i 2).val < win0_2.index t (2 : Fin 3) * 542 + 542; omega

/-- THE ARRAY after the region: the snapshot of the two arguments. -/
theorem final (c : Dev nD) :
    (dats m 0 c).arrAt 2 cfg0.N = snapshot (m ((c : Thread nD τ).loc main_arg0)) (m ((c : Thread nD τ).loc main_arg1)) :=
  (dats m 0 c).arrAt_eq_of_cover 2 (snapshot (m ((c : Thread nD τ).loc main_arg0)) (m ((c : Thread nD τ).loc main_arg1))) (fun t _ => flushed_eq m c t) cover

end Cert.KernelIdeal.Snapshot

end
-- ==== Proof.Normalise.lean ====
/-
  Normalising a snapshot by its global maximum, with or without a trailing unit axis.

  One program holds the snapshot as [8, 512, 542], divides it by the maximum over all its entries and only then adds a
  trailing axis of extent one; the other holds it as [8, 512, 542, 1] throughout. When the two arrays agree entry by
  entry (the trailing coordinate can only be zero), the two maxima are the same fold of `max` from the same starting
  word over the same values — dropping the unit coordinate is a bijection between the two index sets — and the
  quotients agree entry by entry.
-/
import Idealize.ShloMosaic.PureOps.Ideal.Laws
import Idealize.ShloMosaic.PureOps.Reduce
import Idealize.ShloMosaic.Lib.Pipeline.Value
import Idealize.ShloMosaic.Lib.ValueIdx

set_option maxRecDepth 16384

noncomputable section

namespace Cert.Normalise

open Idealize.ShloMosaic Idealize.ShloMosaic.ValueIdx

abbrev Snap : Shape := ⟨3, ![8, 512, 542]⟩
abbrev Snap1 : Shape := ⟨4, ![8, 512, 542, 1]⟩
abbrev Sc : Shape := ⟨0, ![]⟩

/-- Divide by the maximum over all entries, then add the trailing unit axis. -/
def tailK (hr : Snap.ReducesTo [0, 1, 2] Sc) (hu : 0 < Sc.numel) (hb : Sc.BroadcastsInDim Snap (![] : Fin 0 → Fin Snap.rank))
    (hb1 : Snap.BroadcastsInDim Snap1 (![0, 1, 2] : Fin 3 → Fin Snap1.rank)) (Y : FVec Ideal Snap .f32) : FVec Ideal Snap1 .f32 :=
  broadcastInDim Snap1 ![0, 1, 2] hb1
    (Host.divf Y (broadcastInDim Snap ![] hb (Host.reduce FloatOps.maximumf Y (constant Sc .f32 0xFF800000#32) hr hu)))

/-- Divide by the maximum over all entries, the trailing unit axis already there. -/
def tailR (hr : Snap1.ReducesTo [0, 1, 2, 3] Sc) (hu : 0 < Sc.numel)
    (hb : Sc.BroadcastsInDim Snap1 (![] : Fin 0 → Fin Snap1.rank)) (Y' : FVec Ideal Snap1 .f32) : FVec Ideal Snap1 .f32 :=
  Host.divf Y' (broadcastInDim Snap1 ![] hb (Host.reduce FloatOps.maximumf Y' (constant Sc .f32 0xFF800000#32) hr hu))

/-- Dropping the trailing unit coordinate. -/
def dropUnit (i : Snap1.Idx) : Snap.Idx := ix3 (i 0) (i 1) (i 2)

theorem dropUnit_injective : ∀ x ∈ (Finset.univ : Finset Snap1.Idx), ∀ y ∈ (Finset.univ : Finset Snap1.Idx),
    dropUnit x = dropUnit y → x = y := by
  intro x _ y _ h
  funext a
  match a with
  | ⟨0, _⟩ => exact congrFun h (0 : Fin 3)
  | ⟨1, _⟩ => exact congrFun h (1 : Fin 3)
  | ⟨2, _⟩ => exact congrFun h (2 : Fin 3)
  | ⟨3, h3⟩ =>
    apply Fin.ext
    have hx : (x ⟨3, h3⟩).val < 1 := (x ⟨3, h3⟩).isLt
    have hy : (y ⟨3, h3⟩).val < 1 := (y ⟨3, h3⟩).isLt
    omega

theorem dropUnit_image : (Finset.univ : Finset Snap1.Idx).image dropUnit = Finset.univ := by
  ext k
  simp only [Finset.mem_image, Finset.mem_univ, true_and, iff_true]
  exact ⟨ix4 (k 0) (k 1) (k 2) (0 : Fin 1), (eq_ix3 k).symm⟩

/-- The two maxima over all entries are one fold. -/
theorem reduceMax_eq (hr3 : Snap.ReducesTo [0, 1, 2] Sc) (hr4 : Snap1.ReducesTo [0, 1, 2, 3] Sc) (hu : 0 < Sc.numel)
    (Y : FVec Ideal Snap .f32) (Y' : FVec Ideal Snap1 .f32) (hY : ∀ i : Snap1.Idx, Y' i = Y (dropUnit i))
    (init : Sc.Idx → Ideal .f32) (j : Sc.Idx) :
    Host.reduce (FloatOps.maximumf (F := Ideal) (φ := .f32)) Y' init hr4 hu j
      = Host.reduce (FloatOps.maximumf (F := Ideal) (φ := .f32)) Y init hr3 hu j := by
  rw [Host.reduce_eq_fold, Host.reduce_eq_fold]
  have f4 : (Finset.univ.filter fun i : Snap1.Idx => hr4.drop i = j) = Finset.univ :=
    Finset.filter_true_of_mem fun i _ => Subsingleton.elim _ _
  have f3 : (Finset.univ.filter fun i : Snap.Idx => hr3.drop i = j) = Finset.univ :=
    Finset.filter_true_of_mem fun i _ => Subsingleton.elim _ _
  rw [f4, f3, ← dropUnit_image, Finset.fold_image dropUnit_injective]
  congr 1
  funext i
  exact hY i

/-- The host's quotient read at an index. -/
theorem hostDivf_apply {s : Shape} (a b : FVec Ideal s .f32) (i : s.Idx) : Host.divf a b i = Ideal.div (a i) (b i) := rfl

/-- A scalar repeated over a whole shape reads, anywhere, the scalar. -/
theorem bcastScalar_apply (t : Shape) (hb : Sc.BroadcastsInDim t (![] : Fin 0 → Fin t.rank)) (s : FVec Ideal Sc .f32)
    (i : t.Idx) : broadcastInDim t ![] hb s i = s ix0 :=
  broadcastInDim_apply _ hb s i ix0 (fun a => a.elim0)

/-- Arrays that agree entry by entry have the same normalised result. -/
theorem tail_eq (hr3 : Snap.ReducesTo [0, 1, 2] Sc) (hr4 : Snap1.ReducesTo [0, 1, 2, 3] Sc) (hu : 0 < Sc.numel)
    (hb : Sc.BroadcastsInDim Snap (![] : Fin 0 → Fin Snap.rank))
    (hb1 : Snap.BroadcastsInDim Snap1 (![0, 1, 2] : Fin 3 → Fin Snap1.rank))
    (hb' : Sc.BroadcastsInDim Snap1 (![] : Fin 0 → Fin Snap1.rank))
    (Y : FVec Ideal Snap .f32) (Y' : FVec Ideal Snap1 .f32) (hY : ∀ i : Snap1.Idx, Y' i = Y (dropUnit i)) :
    tailK hr3 hu hb hb1 Y = tailR hr4 hu hb' Y' := by
  funext i
  unfold tailK tailR
  refine (broadcastInDim_apply _ hb1 _ i (dropUnit i) (fun a => ?_)).trans ?_
  · match a with
    | ⟨0, _⟩ => show (i 0).val = if (8 : Nat) = 1 then 0 else (i 0).val; rw [if_neg (by decide)]
    | ⟨1, _⟩ => show (i 1).val = if (512 : Nat) = 1 then 0 else (i 1).val; rw [if_neg (by decide)]
    | ⟨2, _⟩ => show (i 2).val = if (542 : Nat) = 1 then 0 else (i 2).val; rw [if_neg (by decide)]
  · rw [hostDivf_apply, hostDivf_apply, bcastScalar_apply, bcastScalar_apply, hY i,
      reduceMax_eq hr3 hr4 hu Y Y' hY]

end Cert.Normalise

end
-- ==== Proof.KernelRun.lean ====
/-
  The kernel program's run, read.

  After the region the host takes the maximum over the whole snapshot, divides the snapshot by it, and adds a trailing
  unit axis. The lines after the region read the region's output array, which is the snapshot of the two arguments; so
  the program's result is that snapshot normalised, and no line writes an argument.
-/
import proofs.«126580_j38439957299667_1_alg».proof.Proof.KernelArray
import proofs.«126580_j38439957299667_1_alg».proof.Proof.Normalise

set_option maxRecDepth 16384

noncomputable section

namespace Cert.KernelIdeal.Snapshot

open Cert.KernelIdeal Cert.KernelIdeal.Gen Idealize.ShloMosaic Idealize.ShloMosaic.TcCoe Idealize.SL.Sem
open Idealize.ShloMosaic.Pipeline (Dat)
open Idealize.ShloMosaic.ValueIdx Cert.Dispersion

variable (m : (ℓ : Loc nD τ sig) → Buf (Elt Ideal) ℓ) (ρ : Dev nD → PrngReg)

/-- The program's result on core `c`: the snapshot of the two arguments, divided by its maximum, with a trailing
    unit axis. -/
abbrev result (c : Dev nD) : S8x512x542x1.Idx → Ideal .f32 :=
  Cert.Normalise.tailK reducesTo_S8x512x542_S_d0_1_2 h_S_ bcast_S_S8x512x542 bcast_S8x512x542_S8x512x542x1_0_1_2
    (snapshot (m ((c : Thread nD τ).loc main_arg0)) (m ((c : Thread nD τ).loc main_arg1)))

/-- What the lines after the region leave in the result buffer. -/
theorem tail_v6 (c : Dev nD) :
    Pipeline.afterTail₀ cfgs (dats m) 0 (V0 m) [hostOps1] c main_v6 = result m c := by
  unfold Pipeline.afterTail₀
  show StableHlo.after hostOps1 _ (Proc.devRef .tc main_v6) = _
  after_results
  exact congrArg (Cert.Normalise.tailK reducesTo_S8x512x542_S_d0_1_2 h_S_ bcast_S_S8x512x542
      bcast_S8x512x542_S8x512x542x1_0_1_2)
    ((Pipeline.withArrays_arr spec0 launch0.win.arr_inj c _ _ 2).trans (final m c))

/-- Every weakly fair execution terminates with the result buffer at the normalised snapshot and the arguments as
    launched. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg1) = m ((c : Thread nD τ).loc main_arg1)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v6 (Pipeline.mem_restRefs_of main_v6 (by decide) (by decide))).trans (tail_v6 m c),
     ((h c).2 main_arg1 (Pipeline.mem_restRefs_of main_arg1 (by decide) (by decide))).trans (W_main_arg1 m (dats m) c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Snapshot

end
-- ==== Proof.LibScatterLand.lean ====
/-
  Where a scatter's update index lands, as one equation per operand axis.

  `d.resultIdx? j idx` is the operand index that update index `j` lands at: on every operand axis `a` the
  start `d.start j idx a` (read signed off the scatter indices, zero on an axis the map does not name) plus the
  window coordinate `d.window j a`, provided that sum is inside the operand on every axis; otherwise nothing.
  So it is `some i` exactly when the sum is `i`'s coordinate on every axis (a coordinate of `i` is inside by its
  type). With this, "update `j` lands at `i`" is decided axis by axis, by arithmetic on integers.
-/
import Mathlib
import Idealize.ShloMosaic.PureOps.ShapeOps

namespace Cert.Lib.ScatterLand

open Idealize.ShloMosaic

/-- Update index `j` lands at operand index `i` exactly when, on every operand axis, the start plus the window
    coordinate is `i`'s coordinate. -/
theorem resultIdx?_eq_some_iff {s si u : Shape} {w : Nat} (d : ScatterDims s si u) (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e1 := congrFun (Option.some.inj e) a
      have e2 := congrArg Fin.val e1
      have h0 := (h a).1
      simp only at e2
      omega
    · intro hall
      refine congrArg some (funext fun a => Fin.ext ?_)
      have := hall a
      show (d.start j idx a + (d.window j a : Int)).toNat = (i a).val
      omega
  · rename_i h
    constructor
    · intro e; exact absurd e (by simp)
    · intro hall
      exfalso; apply h; intro a
      have := hall a; have := (i a).isLt
      constructor <;> omega

end Cert.Lib.ScatterLand
-- ==== Proof.RefScatterLanding.lean ====
/-
  Where an update of the reference's scatter lands.

  The scatter adds updates of shape [8, 512, 15872, 1] into an array of shape [8, 512, 542, 1]. Its dimension
  numbers make axes 0, 1 and 3 of an update index window axes, carried unchanged to axes 0, 1 and 3 of the array,
  and make axis 2 of the update index the scatter axis: position `e` on it reads entry `e` of the index column,
  as a signed word, and that word is the coordinate on axis 2 of the array (the window coordinate there is zero,
  the axis being an inserted one). So update index `j` lands at `(b, m, n, z)` exactly when `j 0 = b`, `j 1 = m`,
  `j 3 = z` and the word read at position `j 2` has signed value `n`.

  Each axis is a small computation on the literal lists `[0, 1, 3]`, `[2]`, `[2]` and the index-vector axis `1`.
-/
import proofs.«126580_j38439957299667_1_alg».proof.Proof.Gen.ReferenceIdeal.Read
import Idealize.ShloMosaic.Lib.ValueIdx
import proofs.«126580_j38439957299667_1_alg».proof.Proof.LibScatterLand

noncomputable section

namespace Cert.RefScatter

open Cert.ReferenceIdeal Cert.ReferenceIdeal.Gen Idealize.ShloMosaic Idealize.ShloMosaic.ValueIdx

/-- The scatter's dimension numbers. -/
abbrev dims : ScatterDims S8x512x542x1 S15872x1 S8x512x15872x1 :=
  scatter_S8x512x542x1_S15872x1_S8x512x15872x1_013_2_2_1

/-! ## The start of the window, axis by axis

Only axis 2 of the array is named by the map from index components to array axes; on the other axes the start is
zero. -/

theorem start0 (j : S8x512x15872x1.Idx) (idx : IVec S15872x1 32) : dims.start j idx 0 = 0 := by
  unfold ScatterDims.start
  exact dif_neg (by decide)

theorem start1 (j : S8x512x15872x1.Idx) (idx : IVec S15872x1 32) : dims.start j idx 1 = 0 := by
  unfold ScatterDims.start
  exact dif_neg (by decide)

theorem start3 (j : S8x512x15872x1.Idx) (idx : IVec S15872x1 32) : dims.start j idx 3 = 0 := by
  unfold ScatterDims.start
  exact dif_neg (by decide)

/-- The place in the index column that update index `j` reads: row `j 2` (the one update axis that is not a window
    axis), column `0` (the index vector has one component). -/
theorem siIdx_eq (j : S8x512x15872x1.Idx) (c : Fin dims.scatterDimsToOperandDims.length) :
    dims.siIdx j c = ix2 (j 2) (0 : Fin 1) := by
  funext b
  match b with
  | ⟨0, _⟩ => rfl
  | ⟨1, _⟩ =>
    exact Fin.ext (by
      have hc := c.isLt
      change c.val < 1 at hc
      show c.val = 0
      omega)

theorem start2 (j : S8x512x15872x1.Idx) (idx : IVec S15872x1 32) :
    dims.start j idx 2 = (idx (ix2 (j 2) (0 : Fin 1))).toInt := by
  unfold ScatterDims.start
  rw [dif_pos (by decide)]
  rw [siIdx_eq]
  rfl

/-! ## The window coordinate, axis by axis

The array's axes 0, 1, 3 are the ones that are not inserted; the update's window axes 0, 1, 3 go to them in order.
Axis 2 is inserted: its window coordinate is zero. -/

theorem window0 (j : S8x512x15872x1.Idx) : dims.window j 0 = (j 0).val := by
  unfold ScatterDims.window
  rw [dif_pos (by decide)]
  rfl

theorem window1 (j : S8x512x15872x1.Idx) : dims.window j 1 = (j 1).val := by
  unfold ScatterDims.window
  rw [dif_pos (by decide)]
  rfl

theorem window2 (j : S8x512x15872x1.Idx) : dims.window j 2 = 0 := by
  unfold ScatterDims.window
  exact dif_neg (by decide)

theorem window3 (j : S8x512x15872x1.Idx) : dims.window j 3 = (j 3).val := by
  unfold ScatterDims.window
  rw [dif_pos (by decide)]
  rfl

/-! ## Landing -/

/-- Update index `j` lands at `(b, m, n, z)` exactly when it agrees with it on the three window axes and the word
    it reads off the index column has signed value `n`. -/
theorem lands_iff (j : S8x512x15872x1.Idx) (idx : IVec S15872x1 32) (b : Fin 8) (m : Fin 512) (n : Fin 542)
    (z : Fin 1) :
    dims.resultIdx? j idx = some (ix4 b m n z) ↔
      j 0 = b ∧ j 1 = m ∧ j 3 = z ∧ (idx (ix2 (j 2) (0 : Fin 1))).toInt = (n.val : Int) := by
  rw [Cert.Lib.ScatterLand.resultIdx?_eq_some_iff]
  constructor
  · intro h
    have h0 := h 0
    have h1 := h 1
    have h2 := h 2
    have h3 := h 3
    rw [start0, window0] at h0
    rw [start1, window1] at h1
    rw [start2, window2] at h2
    rw [start3, window3] at h3
    change _ = (b.val : Int) at h0
    change _ = (m.val : Int) at h1
    change _ = (n.val : Int) at h2
    change _ = (z.val : Int) at h3
    refine ⟨Fin.ext (by omega), Fin.ext (by omega), Fin.ext (by omega), by omega⟩
  · rintro ⟨e0, e1, e3, e2⟩ a
    match a with
    | ⟨0, _⟩ =>
      show dims.start j idx 0 + (dims.window j 0 : Int) = (b.val : Int)
      rw [start0, window0, e0]; omega
    | ⟨1, _⟩ =>
      show dims.start j idx 1 + (dims.window j 1 : Int) = (m.val : Int)
      rw [start1, window1, e1]; omega
    | ⟨2, _⟩ =>
      show dims.start j idx 2 + (dims.window j 2 : Int) = (n.val : Int)
      rw [start2, window2, e2]; omega
    | ⟨3, _⟩ =>
      show dims.start j idx 3 + (dims.window j 3 : Int) = (z.val : Int)
      rw [start3, window3, e3]; omega

/-- An update index that agrees with `(b, m, ·, z)` on the window axes is `(b, m, j 2, z)`. -/
theorem eq_of_lands (j : S8x512x15872x1.Idx) (b : Fin 8) (m : Fin 512) (z : Fin 1)
    (e0 : j 0 = b) (e1 : j 1 = m) (e3 : j 3 = z) : ix4 b m (j 2) z = j := by
  funext a
  match a with
  | ⟨0, _⟩ => exact e0.symm
  | ⟨1, _⟩ => exact e1.symm
  | ⟨2, _⟩ => rfl
  | ⟨3, _⟩ => exact e3.symm

end Cert.RefScatter

end
-- ==== Proof.RefScatterIndex.lean ====
/-
  The reference's index column.

  Entry `e` of the column (`e < 512 · 31`) is the 32-bit word `e / 31 + e % 31`: a column of the numbers below 512
  plus a row of the numbers below 31, flattened row-major, so position `e` holds column number `e / 31` plus band
  number `e % 31`. The program then replaces a negative entry `v` by `v + 542`; no entry is negative (each is at
  most `511 + 30`, far below `2 ^ 31`, so neither the sum of the two words wraps nor is its sign bit set), and
  the replacement changes nothing. Its signed value is therefore the natural number `e / 31 + e % 31`.
-/
import proofs.«126580_j38439957299667_1_alg».proof.Proof.Gen.ReferenceIdeal.Read
import Idealize.ShloMosaic.Lib.ValueIdx

noncomputable section

namespace Cert.RefScatter

open Cert.ReferenceIdeal Cert.ReferenceIdeal.Gen Idealize.ShloMosaic Idealize.ShloMosaic.ValueIdx

/-- A natural number below `2 ^ 31`, as a 32-bit word, has itself as signed value. -/
theorem word_toInt (k : ℕ) (hk : k < 2147483648) : (BitVec.ofNat 32 k).toInt = (k : Int) := by
  have hn : (BitVec.ofNat 32 k).toNat = k := by
    rw [BitVec.toNat_ofNat]; exact Nat.mod_eq_of_lt (by omega)
  rw [BitVec.toInt_eq_toNat_of_lt (by rw [hn]; omega), hn]

/-- The flattened sum of the column of column numbers and the row of band numbers, at position `e`. -/
theorem flat_at (e : Fin 15872) :
    Read.val_main_v9 (F := Ideal) (ix1 e) = BitVec.ofNat 32 (e.val / 31 + e.val % 31) := by
  rw [Read.val_main_v9_apply, Read.val_main_v8_apply, Read.val_main_v6_apply, Read.val_main_v3_apply,
    Read.val_main_v2_apply, Read.val_main_v7_apply, Read.val_main_v5_apply, Read.val_main_v4_apply]
  rw [BitVec.ofNat_add]
  rfl

/-- The test "is the entry negative" fails at every position, so the selection keeps the entry. -/
theorem wrapped_at (e : Fin 15872) :
    Read.val_main_v16 (F := Ideal) (ix1 e) = BitVec.ofNat 32 (e.val / 31 + e.val % 31) := by
  rw [Read.val_main_v16_apply, Read.val_main_v13_apply, Read.val_main_v12_apply, Read.val_main_c_apply, flat_at]
  have hlt := e.isLt
  have hs : IntOp.cmpi .slt (BitVec.ofNat 32 (e.val / 31 + e.val % 31)) 0#32 = 0#1 := by
    show BitVec.ofBool (BitVec.slt (BitVec.ofNat 32 (e.val / 31 + e.val % 31)) 0#32) = 0#1
    rw [BitVec.slt_eq_decide, word_toInt _ (by omega), BitVec.toInt_zero, decide_eq_false (by omega)]
    rfl
  rw [hs, select_zero]

/-- Row `e` of the index column has signed value `e / 31 + e % 31`. -/
theorem column_at (e : Fin 15872) :
    (Read.val_main_v17 (F := Ideal) (ix2 e (0 : Fin 1))).toInt = ((e.val / 31 + e.val % 31 : ℕ) : Int) := by
  rw [Read.val_main_v17_apply]
  have hi : Read.idx_main_v17 (ix2 e (0 : Fin 1)) = ix1 e := by
    funext a
    match a with
    | ⟨0, _⟩ => rfl
  have hlt := e.isLt
  rw [hi, wrapped_at, word_toInt _ (by omega)]

end Cert.RefScatter

end
-- ==== Proof.RefScatter.lean ====
/-
  The reference's scatter, read at an index.

  The scatter starts from the zero array and adds, into entry `(b, m, n, z)`, every update whose index lands there.
  By the landing condition those are the update indices `(b, m, e, z)` with `e / 31 + e % 31 = n`, one for each
  such flattened position `e < 512 · 31`. The update at `(b, m, e, z)` is the flattened product of the mask and
  the cube: `H[0, m, e / 31, 0, 0] · x[b, m, e / 31, e % 31, 0]`, the entry at column `e / 31`, band `e % 31` of row
  `m` of batch `b` of the modulated cube. Summing those over the positions with column plus band equal to `n` is
  the dispersion sum of that row at output column `n`.
-/
import proofs.«126580_j38439957299667_1_alg».proof.Proof.RefScatterLanding
import proofs.«126580_j38439957299667_1_alg».proof.Proof.RefScatterIndex
import proofs.«126580_j38439957299667_1_alg».proof.Proof.Dispersion
import Idealize.ShloMosaic.PureOps.Ideal.Laws

noncomputable section

namespace Cert.RefScatter

open Cert.ReferenceIdeal Cert.ReferenceIdeal.Gen Idealize.ShloMosaic Idealize.ShloMosaic.ValueIdx

/-- The sum over the update indices landing at `(b, m, n, z)` is the sum over the flattened positions `e` with
    `e / 31 + e % 31 = n` of the update at `(b, m, e, z)`, for any index column whose row `e` has signed value
    `e / 31 + e % 31`: `j ↦ j 2` and `e ↦ (b, m, e, z)` are inverse bijections between the two index sets. -/
theorem sum_lands (f : S8x512x15872x1.Idx → EReal) (idx : IVec S15872x1 32)
    (hidx : ∀ e : Fin 15872, (idx (ix2 e (0 : Fin 1))).toInt = ((e.val / 31 + e.val % 31 : ℕ) : Int))
    (b : Fin 8) (m : Fin 512) (n : Fin 542) (z : Fin 1)
    [DecidablePred fun j : S8x512x15872x1.Idx => dims.resultIdx? j idx = some (ix4 b m n z)] :
    ∑ j ∈ Finset.univ.filter (fun j : S8x512x15872x1.Idx => dims.resultIdx? j idx = some (ix4 b m n z)), f j
      = ∑ e ∈ (Finset.univ : Finset (Fin 15872)).filter (fun e => e.val / 31 + e.val % 31 = n.val),
          f (ix4 b m e z) := by
  refine Finset.sum_bij' (fun j _ => (j 2 : Fin 15872)) (fun e _ => ix4 b m e z) ?_ ?_ ?_ ?_ ?_
  · intro j hj
    have hl := (lands_iff j idx b m n z).mp (Finset.mem_filter.mp hj).2
    have h4 : (n.val : Int) = ((((j 2 : Fin 15872).val / 31 + (j 2 : Fin 15872).val % 31 : ℕ)) : Int) :=
      hl.2.2.2.symm.trans (hidx (j 2))
    refine Finset.mem_filter.mpr ⟨Finset.mem_univ _, ?_⟩
    omega
  · intro e he
    have h := (Finset.mem_filter.mp he).2
    refine Finset.mem_filter.mpr ⟨Finset.mem_univ _, ?_⟩
    refine (lands_iff (ix4 b m e z) idx b m n z).mpr ⟨rfl, rfl, rfl, ?_⟩
    refine (hidx e).trans ?_
    omega
  · intro j hj
    have hl := (lands_iff j idx b m n z).mp (Finset.mem_filter.mp hj).2
    exact eq_of_lands j b m z hl.1 hl.2.1 hl.2.2.1
  · intro e he
    rfl
  · intro j hj
    have hl := (lands_iff j idx b m n z).mp (Finset.mem_filter.mp hj).2
    exact congrArg f (eq_of_lands j b m z hl.1 hl.2.1 hl.2.2.1).symm

/-- The update at `(b, m, e, z)` is the modulated cube's entry at column `e / 31`, band `e % 31`: the flattened
    position `((b · 512 + m) · 15872 + e) · 1 + z` of the update array is position `(b, m, e / 31, e % 31, 0)` of the
    product, since `15872 = 512 · 31`; the mask is read there at `(0, m, e / 31, 0, 0)`; and the product of the two
    extended reals does not depend on their order. -/
theorem upd_at (x : (⟨S8x512x512x31x1, .f32⟩ : BufTy).Contents (Elt Ideal))
    (h : (⟨S1x512x512x1x1, .f32⟩ : BufTy).Contents (Elt Ideal))
    (b : Fin 8) (m : Fin 512) (e : Fin 15872) (z : Fin 1) :
    Read.val_main_v11 (F := Ideal) x h (ix4 b m e z) = Cert.Dispersion.cube x h b m (e.val / 31) (e.val % 31) := by
  have hlt := e.isLt
  have hq : e.val / 31 < 512 ∧ e.val % 31 < 31 := ⟨by omega, by omega⟩
  rw [Read.val_main_v11_apply, Read.val_main_v1_apply, Read.val_main_v0_apply, Ideal.mulf_def]
  unfold Cert.Dispersion.cube
  rw [dif_pos hq]
  have i1 : Read.idx_main_v11 (ix4 b m e z) = ix5 b m ⟨e.val / 31, hq.1⟩ ⟨e.val % 31, hq.2⟩ (0 : Fin 1) := by
    have hb := b.isLt
    have hm := m.isLt
    have hz := z.isLt
    funext a
    match a with
    | ⟨0, _⟩ =>
      exact Fin.ext (by
        show (((b.val * 512 + m.val) * 15872 + e.val) * 1 + z.val) / 8126464 = b.val; omega)
    | ⟨1, _⟩ =>
      exact Fin.ext (by
        show (((b.val * 512 + m.val) * 15872 + e.val) * 1 + z.val) / 15872 % 512 = m.val; omega)
    | ⟨2, _⟩ =>
      exact Fin.ext (by
        show (((b.val * 512 + m.val) * 15872 + e.val) * 1 + z.val) / 31 % 512 = e.val / 31; omega)
    | ⟨3, _⟩ =>
      exact Fin.ext (by
        show (((b.val * 512 + m.val) * 15872 + e.val) * 1 + z.val) / 1 % 31 = e.val % 31; omega)
    | ⟨4, _⟩ => rfl
  have i0 : Read.idx_main_v0 (ix5 b m (⟨e.val / 31, hq.1⟩ : Fin 512) (⟨e.val % 31, hq.2⟩ : Fin 31) (0 : Fin 1))
      = ix5 (0 : Fin 1) m (⟨e.val / 31, hq.1⟩ : Fin 512) (0 : Fin 1) (0 : Fin 1) := by
    funext a
    match a with
    | ⟨0, _⟩ => rfl
    | ⟨1, _⟩ => rfl
    | ⟨2, _⟩ => rfl
    | ⟨3, _⟩ => rfl
    | ⟨4, _⟩ => rfl
  rw [i1, i0]
  exact mul_comm _ _

/-- The scatter at `(b, m, n, z)`: zero plus the updates landing there, which is the dispersion sum of row `m` of
    batch `b` of the modulated cube at output column `n`. -/
theorem scatter_apply (x : (⟨S8x512x512x31x1, .f32⟩ : BufTy).Contents (Elt Ideal))
    (h : (⟨S1x512x512x1x1, .f32⟩ : BufTy).Contents (Elt Ideal))
    (b : Fin 8) (m : Fin 512) (n : Fin 542) (z : Fin 1) :
    Read.val_main_v18 (F := Ideal) x h (ix4 b m n z)
      = Cert.Dispersion.partialSum (Cert.Dispersion.cube x h b m) 31 n.val := by
  show Ideal.hostScatterAdd dims (Read.val_main_v10 (F := Ideal)) (Read.val_main_v17 (F := Ideal))
      (Read.val_main_v11 (F := Ideal) x h) (ix4 b m n z) = _
  unfold Ideal.hostScatterAdd
  rw [sum_lands _ _ column_at]
  rw [Read.val_main_v10_apply, Read.val_main_cst_apply]
  refine (congrArg (· + _) Ideal.ofBits_zero_f32).trans ?_
  rw [zero_add, ← Cert.Dispersion.sum_shear]
  exact Finset.sum_congr rfl (fun e _ => upd_at x h b m e z)

end Cert.RefScatter

end
-- ==== Proof.lean ====
/-
  The dispersed snapshot, accumulated band by band, against the same snapshot scatter-added — over the extended reals.

  Both programs take a spectral cube `x` [8, 512, 512, 31, 1] and a coded aperture `H` [1, 512, 512, 1, 1] and
  return the snapshot `Y[b, m, n, 0] = Σ_l x[b, m, n - l, l, 0] · H[0, m, n - l, 0, 0]`, the sum over the bands
  `l < 31` with `0 ≤ n - l < 512`, divided by the largest entry of `Y` (and `H` itself, untouched).

  The kernel handles 128 rows of one batch at a time: it multiplies the cube tile by the aperture tile, clears a
  [128, 542] accumulator, and for `l = 0, …, 30` adds band `l` of the product into the accumulator's columns
  `l … l + 511`. After band `l` the accumulator holds the partial sums over the bands below `l + 1`, so after the
  last band it holds the snapshot's rows. The reference multiplies the whole cube by the aperture, flattens
  (column, band) into one axis of length `512 · 31`, and scatter-adds position `e` into column `e / 31 + e % 31` of a
  zero array: entry `n` receives the positions whose column plus band is `n`, which `e ↦ e % 31` matches one to one
  with the bands that reach column `n`. The two snapshots are therefore the same sums of the same products, grouped
  differently and with the two factors in the other order. Addition and multiplication of extended reals are
  commutative and associative whether or not the entries are finite, so no use is made of the precondition.
  Both programs then take the maximum over every entry, from the same `-∞` word, and divide by it; the kernel does so
  on [8, 512, 542] and adds the trailing unit axis last, which changes neither the set of entries nor the quotients.

  The idealised kernel is the kernel's own text read over the extended reals (nothing was rewritten), so the
  idealisation claim is empty. Each program's frame is its generated run.
-/
import proofs.«126580_j38439957299667_1_alg».proof.Defs
import proofs.«126580_j38439957299667_1_alg».proof.Proof.Gen.Kernel
import proofs.«126580_j38439957299667_1_alg».proof.Proof.Gen.Kernel.Frame
import proofs.«126580_j38439957299667_1_alg».proof.Proof.Gen.KernelIdeal
import proofs.«126580_j38439957299667_1_alg».proof.Proof.Gen.KernelIdeal.Frame
import proofs.«126580_j38439957299667_1_alg».proof.Proof.Gen.ReferenceIdeal
import proofs.«126580_j38439957299667_1_alg».proof.Proof.Gen.ReferenceIdeal.Run
import proofs.«126580_j38439957299667_1_alg».proof.Proof.Gen.ReferenceIdeal.Read
import proofs.«126580_j38439957299667_1_alg».proof.Proof.Gen.Pre_finite_inputs
import proofs.«126580_j38439957299667_1_alg».proof.Proof.KernelRun
import proofs.«126580_j38439957299667_1_alg».proof.Proof.RefScatter
import proofs.«126580_j38439957299667_1_alg».proof.Proof.Normalise
import Idealize.ShloMosaic.Adequacy
import Idealize.ShloMosaic.Init

set_option maxRecDepth 16384

noncomputable section

/-! ## The two results are one array -/

namespace Cert.Bridge

open Idealize.ShloMosaic Idealize.ShloMosaic.ValueIdx Cert.Dispersion Cert.Normalise

/-- The reference's scatter-added array, at any index, is the snapshot at that index without its unit coordinate. -/
theorem scatter_is_snapshot (x : CubeShape.Idx → EReal) (h : MaskShape.Idx → EReal) (i : Snap1.Idx) :
    Cert.ReferenceIdeal.Read.val_main_v18 (F := Ideal) x h i = snapshot x h (dropUnit i) :=
  (congrArg (Cert.ReferenceIdeal.Read.val_main_v18 (F := Ideal) x h) (eq_ix4 i)).trans
    (Cert.RefScatter.scatter_apply x h (i 0) (i 1) (i 2) (i 3))

/-- The reference's result is its scatter-added array divided by its maximum. -/
theorem ref_result (x : CubeShape.Idx → EReal) (h : MaskShape.Idx → EReal) :
    Cert.ReferenceIdeal.Read.val_main_v21 (F := Ideal) x h
      = tailR Cert.ReferenceIdeal.Gen.facts₀.reducesTo_S8x512x542x1_S_d0_1_2_3 Cert.ReferenceIdeal.Gen.facts₀.h_S_
          Cert.ReferenceIdeal.Gen.facts₀.bcast_S_S8x512x542x1 (Cert.ReferenceIdeal.Read.val_main_v18 (F := Ideal) x h) := rfl

/-- The normalised snapshot with the unit axis added last is the reference's result. -/
theorem results_eq (hr3 : Snap.ReducesTo [0, 1, 2] Sc) (hu : 0 < Sc.numel)
    (hb : Sc.BroadcastsInDim Snap (![] : Fin 0 → Fin Snap.rank))
    (hb1 : Snap.BroadcastsInDim Snap1 (![0, 1, 2] : Fin 3 → Fin Snap1.rank))
    (x : CubeShape.Idx → EReal) (h : MaskShape.Idx → EReal) :
    tailK hr3 hu hb hb1 (snapshot x h) = Cert.ReferenceIdeal.Read.val_main_v21 (F := Ideal) x h :=
  (tail_eq hr3 _ hu hb hb1 _ (snapshot x h) (Cert.ReferenceIdeal.Read.val_main_v18 (F := Ideal) x h)
    (scatter_is_snapshot x h)).trans (ref_result x h).symm

end Cert.Bridge

/-! ## The claims -/

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result forgotten. -/
theorem frame_ri : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- Nothing was rewritten when the kernel was idealised. -/
theorem preserves : Cert.preserves_Kernel_KernelIdeal := trivial

/-- From memories that agree on the two arguments both programs end with the normalised snapshot of those arguments
    and with the aperture as given. -/
theorem algebraic : Cert.algebraic_KernelIdeal_ReferenceIdeal := by
  intro m ρ m' ρ' _ hagree
  refine ⟨fun c => Cert.KernelIdeal.Snapshot.result m c,
    fun c => m ((c.tc : Thread Cert.KernelIdeal.nD Cert.KernelIdeal.τ).loc Cert.KernelIdeal.main_arg1),
    Cert.KernelIdeal.Snapshot.run m ρ, ?_⟩
  refine (θ_run Cert.ReferenceIdeal.defs _ _).mono
    (fun _ h c => ⟨(h c).1.trans ?_, (h c).2.1.trans (hagree c).2, (h c).2.2.1, (h c).2.2.2⟩)
    (Cert.ReferenceIdeal.Value.run (F := Ideal) m' ρ')
  rw [Cert.ReferenceIdeal.Read.val_main_v21_eq, (hagree c).1, (hagree c).2]
  exact (Cert.Bridge.results_eq _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
